-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v14)) (v4 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_v16) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_v55) = v3 c
          ∧ r.2.mem ((c.tc : Thread Cert.ReferenceIdeal.nD Cert.ReferenceIdeal.τ).loc Cert.ReferenceIdeal.main_v57) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x192 : Shape := ⟨2, ![131072, 192]⟩
abbrev S131072x32 : Shape := ⟨2, ![131072, 32]⟩
abbrev S131072x64 : Shape := ⟨2, ![131072, 64]⟩
abbrev S224x64 : Shape := ⟨2, ![224, 64]⟩
abbrev S64 : Shape := ⟨1, ![64]⟩
abbrev S64x256 : Shape := ⟨2, ![64, 256]⟩
abbrev S256 : Shape := ⟨1, ![256]⟩
abbrev S64x1 : Shape := ⟨2, ![64, 1]⟩
abbrev S1 : Shape := ⟨1, ![1]⟩
abbrev S_ : Shape := ⟨0, ![]⟩

class Facts : Prop where
  bcast_S_S131072x192 : S_.BroadcastsInDim S131072x192 (![] : Fin 0 → Fin S131072x192.rank)
  reducesTo_S131072x192_S_d0_1 : S131072x192.ReducesTo [0, 1] S_
  h_S_ : 0 < S_.numel
  bcast_S_S131072x32 : S_.BroadcastsInDim S131072x32 (![] : Fin 0 → Fin S131072x32.rank)
  reducesTo_S131072x32_S_d0_1 : S131072x32.ReducesTo [0, 1] S_
  bcast_S_S131072x64 : S_.BroadcastsInDim S131072x64 (![] : Fin 0 → Fin S131072x64.rank)
  reducesTo_S131072x64_S_d0_1 : S131072x64.ReducesTo [0, 1] S_
  bcast_S_S224x64 : S_.BroadcastsInDim S224x64 (![] : Fin 0 → Fin S224x64.rank)
  reducesTo_S224x64_S_d0_1 : S224x64.ReducesTo [0, 1] S_
  bcast_S_S64 : S_.BroadcastsInDim S64 (![] : Fin 0 → Fin S64.rank)
  reducesTo_S64_S_d0 : S64.ReducesTo [0] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S256 .f32) (main_arg8 : FVec F S64x256 .f32) (main_arg9 : FVec F S256 .f32) (main_arg10 : FVec F S64x1 .f32) (main_arg11 : FVec F S1 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S64x256 .f32 := Host.absf main_arg8
  let main_cst_14 : FVec F S_ .f32 := constant S_ .f32 0x7F800000#32
  let main_v40 : FVec F S64x256 .f32 := broadcastInDim S64x256 ![] bcast_S_S64x256 main_cst_14
  let main_v41 : IVec S64x256 1 := cmpf .olt main_v39 main_v40
  let main_c_15 : IVec S_ 1 := constantI S_ 1 1#1
  let main_v42 : IVec S_ 1 := (fun x v => Host.reduce IntOp.andi x v reducesTo_S64x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S64x1 .f32 := Host.absf main_arg10
  let main_cst_18 : FVec F S_ .f32 := constant S_ .f32 0x7F800000#32
  let main_v50 : FVec F S64x1 .f32 := broadcastInDim S64x1 ![] bcast_S_S64x1 main_cst_18
  fn_part3 (F := F) main_arg11 main_v48 main_v49 main_v50

def fn_part1 {F : FTy → Type} [FloatOps F] (main_arg4 : FVec F S224x64 .f32) (main_arg5 : FVec F S64 .f32) (main_arg6 : FVec F S64x256 .f32) (main_arg7 : FVec F S256 .f32) (main_arg8 : FVec F S64x256 .f32) (main_arg9 : FVec F S256 .f32) (main_arg10 : FVec F S64x1 .f32) (main_arg11 : FVec F S1 .f32) (main_v13 : IVec S_ 1) (main_v16 : IVec S131072x64 1) : IVec S_ 1 :=
  let main_c_5 : IVec S_ 1 := constantI S_ 1 1#1
  let main_v17 : IVec S_ 1 := (fun x v => Host.reduce IntOp.andi x v reducesTo_S131072x64_S_d0_1 h_S_) main_v16 main_c_5
  let main_v18 : IVec S_ 1 := andi main_v13 main_v17
  let main_v19 : FVec F S224x64 .f32 := Host.absf main_arg4
  let main_cst_6 : FVec F S_ .f32 := constant S_ .f32 0x7F800000#32
  let main_v20 : FVec F S224x64 .f32 := broadcastInDim S224x64 ![] bcast_S_S224x64 main_cst_6
  let main_v21 : IVec S224x64 1 := cmpf .olt main_v19 main_v20
  let main_c_7 : IVec S_ 1 := constantI S_ 1 1#1
  let main_v22 : IVec S_ 1 := (fun x v => Host.reduce IntOp.andi x v reducesTo_S224x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x256 .f32 := Host.absf main_arg6
  let main_cst_10 : FVec F S_ .f32 := constant S_ .f32 0x7F800000#32
  let main_v30 : FVec F S64x256 .f32 := broadcastInDim S64x256 ![] bcast_S_S64x256 main_cst_10
  let main_v31 : IVec S64x256 1 := cmpf .olt main_v29 main_v30
  let main_c_11 : IVec S_ 1 := constantI S_ 1 1#1
  let main_v32 : IVec S_ 1 := (fun x v => Host.reduce IntOp.andi x v reducesTo_S64x256_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S131072x192 .f32) (main_arg1 : FVec F S131072x32 .f32) (main_arg2 : FVec F S131072x64 .f32) (main_arg3 : FVec F S131072x64 .f32) (main_arg4 : FVec F S224x64 .f32) (main_arg5 : FVec F S64 .f32) (main_arg6 : FVec F S64x256 .f32) (main_arg7 : FVec F S256 .f32) (main_arg8 : FVec F S64x256 .f32) (main_arg9 : FVec F S256 .f32) (main_arg10 : FVec F S64x1 .f32) (main_arg11 : FVec F S1 .f32) : IVec S_ 1 :=
  let main_v0 : FVec F S131072x192 .f32 := Host.absf main_arg0
  let main_cst : FVec F S_ .f32 := constant S_ .f32 0x7F800000#32
  let main_v1 : FVec F S131072x192 .f32 := broadcastInDim S131072x192 ![] bcast_S_S131072x192 main_cst
  let main_v2 : IVec S131072x192 1 := cmpf .olt main_v0 main_v1
  let main_c : IVec S_ 1 := constantI S_ 1 1#1
  let main_v3 : IVec S_ 1 := (fun x v => Host.reduce IntOp.andi x v reducesTo_S131072x192_S_d0_1 h_S_) main_v2 main_c
  let main_v4 : FVec F S131072x32 .f32 := Host.absf main_arg1
  let main_cst_0 : FVec F S_ .f32 := constant S_ .f32 0x7F800000#32
  let main_v5 : FVec F S131072x32 .f32 := broadcastInDim S131072x32 ![] bcast_S_S131072x32 main_cst_0
  let main_v6 : IVec S131072x32 1 := cmpf .olt main_v4 main_v5
  let main_c_1 : IVec S_ 1 := constantI S_ 1 1#1
  let main_v7 : IVec S_ 1 := (fun x v => Host.reduce IntOp.andi x v reducesTo_S131072x32_S_d0_1 h_S_) main_v6 main_c_1
  let main_v8 : IVec S_ 1 := andi main_v3 main_v7
  let main_v9 : FVec F S131072x64 .f32 := Host.absf main_arg2
  let main_cst_2 : FVec F S_ .f32 := constant S_ .f32 0x7F800000#32
  let main_v10 : FVec F S131072x64 .f32 := broadcastInDim S131072x64 ![] bcast_S_S131072x64 main_cst_2
  let main_v11 : IVec S131072x64 1 := cmpf .olt main_v9 main_v10
  let main_c_3 : IVec S_ 1 := constantI S_ 1 1#1
  let main_v12 : IVec S_ 1 := (fun x v => Host.reduce IntOp.andi x v reducesTo_S131072x64_S_d0_1 h_S_) main_v11 main_c_3
  let main_v13 : IVec S_ 1 := andi main_v8 main_v12
  let main_v14 : FVec F S131072x64 .f32 := Host.absf main_arg3
  let main_cst_4 : FVec F S_ .f32 := constant S_ .f32 0x7F800000#32
  let main_v15 : FVec F S131072x64 .f32 := broadcastInDim S131072x64 ![] bcast_S_S131072x64 main_cst_4
  let main_v16 : IVec S131072x64 1 := cmpf .olt main_v14 main_v15
  fn_part1 (F := F) main_arg4 main_arg5 main_arg6 main_arg7 main_arg8 main_arg9 main_arg10 main_arg11 main_v13 main_v16
-- ==== Kernel.lean ====
abbrev S131072x192 : Shape := ⟨2, ![131072, 192]⟩
abbrev S131072x32 : Shape := ⟨2, ![131072, 32]⟩
abbrev S131072x64 : Shape := ⟨2, ![131072, 64]⟩
abbrev S224x64 : Shape := ⟨2, ![224, 64]⟩
abbrev S64 : Shape := ⟨1, ![64]⟩
abbrev S64x256 : Shape := ⟨2, ![64, 256]⟩
abbrev S256 : Shape := ⟨1, ![256]⟩
abbrev S64x1 : Shape := ⟨2, ![64, 1]⟩
abbrev S1 : Shape := ⟨1, ![1]⟩
abbrev S1x64 : Shape := ⟨2, ![1, 64]⟩
abbrev S128x256 : Shape := ⟨2, ![128, 256]⟩
abbrev S1x256 : Shape := ⟨2, ![1, 256]⟩
abbrev S1x1 : Shape := ⟨2, ![1, 1]⟩
abbrev S131072x1 : Shape := ⟨2, ![131072, 1]⟩
abbrev S4096x192 : Shape := ⟨2, ![4096, 192]⟩
abbrev S4096x32 : Shape := ⟨2, ![4096, 32]⟩
abbrev S4096x64 : Shape := ⟨2, ![4096, 64]⟩
abbrev S4096x1 : Shape := ⟨2, ![4096, 1]⟩
abbrev S192x64 : Shape := ⟨2, ![192, 64]⟩
abbrev S32x64 : Shape := ⟨2, ![32, 64]⟩
abbrev S4096x128 : Shape := ⟨2, ![4096, 128]⟩
abbrev S4096x256 : Shape := ⟨2, ![4096, 256]⟩
abbrev S4096 : Shape := ⟨1, ![4096]⟩
abbrev S2x1x4194304 : Shape := ⟨3, ![2, 1, 4194304]⟩
abbrev S1x1x4194304 : Shape := ⟨3, ![1, 1, 4194304]⟩
abbrev S1x4194304 : Shape := ⟨2, ![1, 4194304]⟩

abbrev nBuf : Space → Nat
  | .hbm => 31
  | .vmem => 20
  | .smem => 0
  | _ => 0

abbrev bufTy : (tb : Table) → Fin (tcTables nBuf tb) → BufTy
  | .hbm, ⟨0, _⟩ => ⟨S131072x192, .f32⟩
  | .hbm, ⟨1, _⟩ => ⟨S131072x32, .f32⟩
  | .hbm, ⟨2, _⟩ => ⟨S131072x64, .f32⟩
  | .hbm, ⟨3, _⟩ => ⟨S131072x64, .f32⟩
  | .hbm, ⟨4, _⟩ => ⟨S224x64, .f32⟩
  | .hbm, ⟨5, _⟩ => ⟨S64, .f32⟩
  | .hbm, ⟨6, _⟩ => ⟨S64x256, .f32⟩
  | .hbm, ⟨7, _⟩ => ⟨S256, .f32⟩
  | .hbm, ⟨8, _⟩ => ⟨S64x256, .f32⟩
  | .hbm, ⟨9, _⟩ => ⟨S256, .f32⟩
  | .hbm, ⟨10, _⟩ => ⟨S64x1, .f32⟩
  | .hbm, ⟨11, _⟩ => ⟨S1, .f32⟩
  | .hbm, ⟨12, _⟩ => ⟨S1x64, .f32⟩
  | .hbm, ⟨13, _⟩ => ⟨S128x256, .f32⟩
  | .hbm, ⟨14, _⟩ => ⟨S256, .f32⟩
  | .hbm, ⟨15, _⟩ => ⟨S1x256, .f32⟩
  | .hbm, ⟨16, _⟩ => ⟨S1x64, .f32⟩
  | .hbm, ⟨17, _⟩ => ⟨S1x1, .f32⟩
  | .hbm, ⟨18, _⟩ => ⟨S131072x1, .f32⟩
  | .hbm, ⟨19, _⟩ => ⟨S131072x64, .f32⟩
  | .hbm, ⟨20, _⟩ => ⟨S131072x64, .f32⟩
  | .hbm, ⟨21, _⟩ => ⟨S2x1x4194304, .f32⟩
  | .hbm, ⟨22, _⟩ => ⟨S2x1x4194304, .f32⟩
  | .hbm, ⟨23, _⟩ => ⟨S1x1x4194304, .f32⟩
  | .hbm, ⟨24, _⟩ => ⟨S1x4194304, .f32⟩
  | .hbm, ⟨25, _⟩ => ⟨S1x1x4194304, .f32⟩
  | .hbm, ⟨26, _⟩ => ⟨S1x4194304, .f32⟩
  | .hbm, ⟨27, _⟩ => ⟨S1x1x4194304, .f32⟩
  | .hbm, ⟨28, _⟩ => ⟨S1x4194304, .f32⟩
  | .hbm, ⟨29, _⟩ => ⟨S1x1x4194304, .f32⟩
  | .hbm, ⟨30, _⟩ => ⟨S1x4194304, .f32⟩
  | .local _ .vmem, ⟨0, _⟩ => ⟨S4096x192, .f32⟩
  | .local _ .vmem, ⟨1, _⟩ => ⟨S4096x192, .f32⟩
  | .local _ .vmem, ⟨2, _⟩ => ⟨S4096x32, .f32⟩
  | .local _ .vmem, ⟨3, _⟩ => ⟨S4096x32, .f32⟩
  | .local _ .vmem, ⟨4, _⟩ => ⟨S4096x64, .f32⟩
  | .local _ .vmem, ⟨5, _⟩ => ⟨S4096x64, .f32⟩
  | .local _ .vmem, ⟨6, _⟩ => ⟨S4096x64, .f32⟩
  | .local _ .vmem, ⟨7, _⟩ => ⟨S4096x64, .f32⟩
  | .local _ .vmem, ⟨8, _⟩ => ⟨S224x64, .f32⟩
  | .local _ .vmem, ⟨9, _⟩ => ⟨S1x64, .f32⟩
  | .local _ .vmem, ⟨10, _⟩ => ⟨S128x256, .f32⟩
  | .local _ .vmem, ⟨11, _⟩ => ⟨S1x256, .f32⟩
  | .local _ .vmem, ⟨12, _⟩ => ⟨S1x64, .f32⟩
  | .local _ .vmem, ⟨13, _⟩ => ⟨S1x1, .f32⟩
  | .local _ .vmem, ⟨14, _⟩ => ⟨S4096x1, .f32⟩
  | .local _ .vmem, ⟨15, _⟩ => ⟨S4096x1, .f32⟩
  | .local _ .vmem, ⟨16, _⟩ => ⟨S4096x64, .f32⟩
  | .local _ .vmem, ⟨17, _⟩ => ⟨S4096x64, .f32⟩
  | .local _ .vmem, ⟨18, _⟩ => ⟨S4096x64, .f32⟩
  | .local _ .vmem, ⟨19, _⟩ => ⟨S4096x64, .f32⟩
  | _, _ => ⟨S131072x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S224x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4096x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4096x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4096x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S64_S1x64 : S64.ShapeCasts S1x64
  concatenates_S64x256_S64x256_S128x256_d0 : Shape.Concatenates [S64x256, S64x256] S128x256 0
  shapeCasts_S256_S1x256 : S256.ShapeCasts S1x256
  shapeCasts_S64x1_S1x64 : S64x1.ShapeCasts S1x64
  shapeCasts_S1_S1x1 : S1.ShapeCasts S1x1
  inb_S4096x192_S4096x192_0_0 : ∀ a, (![0, 0] : Fin 2 → Nat) a + S4096x192.size a ≤ S4096x192.size a
  h_S4096x192 : 0 < S4096x192.numel
  bitsLt_bf16_f32 : FTy.bits .bf16 < FTy.bits .f32
  inb_S4096x32_S4096x32_0_0 : ∀ a, (![0, 0] : Fin 2 → Nat) a + S4096x32.size a ≤ S4096x32.size a
  h_S4096x32 : 0 < S4096x32.numel
  inb_S224x64_S192x64_0_0 : ∀ a, (![0, 0] : Fin 2 → Nat) a + S192x64.size a ≤ S224x64.size a
  h_S192x64 : 0 < S192x64.numel
  inb_S224x64_S32x64_192_0 : ∀ a, (![192, 0] : Fin 2 → Nat) a + S32x64.size a ≤ S224x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S4096x64_S4096x64_0_0 : ∀ a, (![0, 0] : Fin 2 → Nat) a + S4096x64.size a ≤ S4096x64.size a
  h_S4096x64 : 0 < S4096x64.numel
  concatenates_S4096x64_S4096x64_S4096x128_d1 : Shape.Concatenates [S4096x64, S4096x64] S4096x128 1
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  slices_S4096x256_o0_0_S4096x64 : S4096x256.Slices ![0, 0] S4096x64
  slices_S4096x256_o0_64_S4096x64 : S4096x256.Slices ![0, 64] S4096x64
  slices_S4096x256_o0_128_S4096x64 : S4096x256.Slices ![0, 128] S4096x64
  slices_S4096x256_o0_192_S4096x64 : S4096x256.Slices ![0, 192] S4096x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S4096x64_S4096 : S4096x64.Reduces [1] S4096
  shapeCasts_S4096_S4096x1 : S4096.ShapeCasts S4096x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  shapeCasts_S131072x64_S2x1x4194304 : S131072x64.ShapeCasts S2x1x4194304
  slices_S2x1x4194304_S1x1x4194304_0_0_0 : S2x1x4194304.Slices ![0, 0, 0] S1x1x4194304
  shapeCasts_S1x1x4194304_S1x4194304 : S1x1x4194304.ShapeCasts S1x4194304
  slices_S2x1x4194304_S1x1x4194304_1_0_0 : S2x1x4194304.Slices ![1, 0, 0] S1x1x4194304
  dot_S4096x192_S192x64_S4096x64_1_0_0_1_n_n_wf : DotDims.WF S4096x192 S192x64 S4096x64 [1] [0] [0] [1] [] []
  dot_S4096x32_S32x64_S4096x64_1_0_0_1_n_n_wf : DotDims.WF S4096x32 S32x64 S4096x64 [1] [0] [0] [1] [] []
  dot_S4096x128_S128x256_S4096x256_1_0_0_1_n_n_wf : DotDims.WF S4096x128 S128x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x192.size a ≤ S131072x192.size a
  hwx0_0 : ∀ i : grid0.Coords, EltTy.bits .f32 = 32 ∨ (Rect.block (s := S131072x192) S4096x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x32.size a ≤ S131072x32.size a
  hwx0_1 : ∀ i : grid0.Coords, EltTy.bits .f32 = 32 ∨ (Rect.block (s := S131072x32) S4096x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S131072x64.size a
  hwx0_2 : ∀ i : grid0.Coords, EltTy.bits .f32 = 32 ∨ (Rect.block (s := S131072x64) S4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S131072x64.size a
  hwx0_3 : ∀ i : grid0.Coords, EltTy.bits .f32 = 32 ∨ (Rect.block (s := S131072x64) S4096x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S224x64.size a ≤ S224x64.size a
  hwx0_4 : ∀ i : grid0.Coords, EltTy.bits .f32 = 32 ∨ (Rect.block (s := S224x64) S224x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .f32 = 32 ∨ (Rect.block (s := S128x256) S128x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4096x1.size a ≤ S131072x1.size a
  hwx0_10 : ∀ i : grid0.Coords, EltTy.bits .f32 = 32 ∨ (Rect.block (s := S131072x1) S4096x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4096x64.size a ≤ S131072x64.size a
  hwx0_11 : ∀ i : grid0.Coords, EltTy.bits .f32 = 32 ∨ (Rect.block (s := S131072x64) S4096x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4096x64.size a ≤ S131072x64.size a
  hwx0_12 : ∀ i : grid0.Coords, EltTy.bits .f32 = 32 ∨ (Rect.block (s := S131072x64) S4096x64.size (cc0_transform_12 i) (hinb0_12 i)).WholeWords (EltTy.packing .f32)

variable [Facts₀]

def dot_S4096x192_S192x64_S4096x64_1_0_0_1_n_n : DotDims S4096x192 S192x64 S4096x64 where
  lhsContracting := [1]
  rhsContracting := [0]
  lhsNonContracting := [0]
  rhsNonContracting := [1]
  lhsBatch := []
  rhsBatch := []
  wf := dot_S4096x192_S192x64_S4096x64_1_0_0_1_n_n_wf
def dot_S4096x32_S32x64_S4096x64_1_0_0_1_n_n : DotDims S4096x32 S32x64 S4096x64 where
  lhsContracting := [1]
  rhsContracting := [0]
  lhsNonContracting := [0]
  rhsNonContracting := [1]
  lhsBatch := []
  rhsBatch := []
  wf := dot_S4096x32_S32x64_S4096x64_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf

abbrev win0_0 : Pipeline.Window sig grid0 :=
  Pipeline.Window.ofSpec (Memref.whole main_arg0) S4096x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S224x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6_0) S4096x1.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v6_1) S4096x64.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v6_2) S4096x64.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S131072x192 : Shape := ⟨2, ![131072, 192]⟩
abbrev S131072x32 : Shape := ⟨2, ![131072, 32]⟩
abbrev S131072x64 : Shape := ⟨2, ![131072, 64]⟩
abbrev S224x64 : Shape := ⟨2, ![224, 64]⟩
abbrev S64 : Shape := ⟨1, ![64]⟩
abbrev S64x256 : Shape := ⟨2, ![64, 256]⟩
abbrev S256 : Shape := ⟨1, ![256]⟩
abbrev S64x1 : Shape := ⟨2, ![64, 1]⟩
abbrev S1 : Shape := ⟨1, ![1]⟩
abbrev S131072x224 : Shape := ⟨2, ![131072, 224]⟩
abbrev S1x64 : Shape := ⟨2, ![1, 64]⟩
abbrev S_ : Shape := ⟨0, ![]⟩
abbrev S131072x256 : Shape := ⟨2, ![131072, 256]⟩
abbrev S1x256 : Shape := ⟨2, ![1, 256]⟩
abbrev S131072x1 : Shape := ⟨2, ![131072, 1]⟩
abbrev S1x1 : Shape := ⟨2, ![1, 1]⟩
abbrev S2x1x4194304 : Shape := ⟨3, ![2, 1, 4194304]⟩
abbrev S1x1x4194304 : Shape := ⟨3, ![1, 1, 4194304]⟩
abbrev S1x4194304 : Shape := ⟨2, ![1, 4194304]⟩

abbrev nBuf : Space → Nat
  | .hbm => 78
  | .vmem => 0
  | .smem => 0
  | _ => 0

abbrev bufTy : (tb : Table) → Fin (tcTables nBuf tb) → BufTy
  | .hbm, ⟨0, _⟩ => ⟨S131072x192, .f32⟩
  | .hbm, ⟨1, _⟩ => ⟨S131072x32, .f32⟩
  | .hbm, ⟨2, _⟩ => ⟨S131072x64, .f32⟩
  | .hbm, ⟨3, _⟩ => ⟨S131072x64, .f32⟩
  | .hbm, ⟨4, _⟩ => ⟨S224x64, .f32⟩
  | .hbm, ⟨5, _⟩ => ⟨S64, .f32⟩
  | .hbm, ⟨6, _⟩ => ⟨S64x256, .f32⟩
  | .hbm, ⟨7, _⟩ => ⟨S256, .f32⟩
  | .hbm, ⟨8, _⟩ => ⟨S64x256, .f32⟩
  | .hbm, ⟨9, _⟩ => ⟨S256, .f32⟩
  | .hbm, ⟨10, _⟩ => ⟨S64x1, .f32⟩
  | .hbm, ⟨11, _⟩ => ⟨S1, .f32⟩
  | .hbm, ⟨12, _⟩ => ⟨S131072x224, .f32⟩
  | .hbm, ⟨13, _⟩ => ⟨S131072x64, .f32⟩
  | .hbm, ⟨14, _⟩ => ⟨S1x64, .f32⟩
  | .hbm, ⟨15, _⟩ => ⟨S131072x64, .f32⟩
  | .hbm, ⟨16, _⟩ => ⟨S131072x64, .f32⟩
  | .hbm, ⟨17, _⟩ => ⟨S_, .f32⟩
  | .hbm, ⟨18, _⟩ => ⟨S131072x64, .f32⟩
  | .hbm, ⟨19, _⟩ => ⟨S131072x64, .f32⟩
  | .hbm, ⟨20, _⟩ => ⟨S131072x256, .f32⟩
  | .hbm, ⟨21, _⟩ => ⟨S131072x256, .f32⟩
  | .hbm, ⟨22, _⟩ => ⟨S131072x256, .f32⟩
  | .hbm, ⟨23, _⟩ => ⟨S1x256, .f32⟩
  | .hbm, ⟨24, _⟩ => ⟨S131072x256, .f32⟩
  | .hbm, ⟨25, _⟩ => ⟨S131072x256, .f32⟩
  | .hbm, ⟨26, _⟩ => ⟨S1x256, .f32⟩
  | .hbm, ⟨27, _⟩ => ⟨S131072x256, .f32⟩
  | .hbm, ⟨28, _⟩ => ⟨S131072x256, .f32⟩
  | .hbm, ⟨29, _⟩ => ⟨S131072x64, .f32⟩
  | .hbm, ⟨30, _⟩ => ⟨S131072x64, .f32⟩
  | .hbm, ⟨31, _⟩ => ⟨S131072x64, .f32⟩
  | .hbm, ⟨32, _⟩ => ⟨S131072x64, .f32⟩
  | .hbm, ⟨33, _⟩ => ⟨S131072x64, .f32⟩
  | .hbm, ⟨34, _⟩ => ⟨S131072x64, .f32⟩
  | .hbm, ⟨35, _⟩ => ⟨S_, .f32⟩
  | .hbm, ⟨36, _⟩ => ⟨S131072x64, .f32⟩
  | .hbm, ⟨37, _⟩ => ⟨S131072x64, .f32⟩
  | .hbm, ⟨38, _⟩ => ⟨S_, .f32⟩
  | .hbm, ⟨39, _⟩ => ⟨S131072x64, .f32⟩
  | .hbm, ⟨40, _⟩ => ⟨S131072x64, .f32⟩
  | .hbm, ⟨41, _⟩ => ⟨S131072x64, .f32⟩
  | .hbm, ⟨42, _⟩ => ⟨S131072x64, .f32⟩
  | .hbm, ⟨43, _⟩ => ⟨S_, .f32⟩
  | .hbm, ⟨44, _⟩ => ⟨S131072x64, .f32⟩
  | .hbm, ⟨45, _⟩ => ⟨S131072x64, .f32⟩
  | .hbm, ⟨46, _⟩ => ⟨S_, .f32⟩
  | .hbm, ⟨47, _⟩ => ⟨S131072x64, .f32⟩
  | .hbm, ⟨48, _⟩ => ⟨S131072x64, .f32⟩
  | .hbm, ⟨49, _⟩ => ⟨S131072x64, .f32⟩
  | .hbm, ⟨50, _⟩ => ⟨S131072x64, .f32⟩
  | .hbm, ⟨51, _⟩ => ⟨S131072x64, .f32⟩
  | .hbm, ⟨52, _⟩ => ⟨S_, .f32⟩
  | .hbm, ⟨53, _⟩ => ⟨S131072x64, .f32⟩
  | .hbm, ⟨54, _⟩ => ⟨S131072x64, .f32⟩
  | .hbm, ⟨55, _⟩ => ⟨S_, .f32⟩
  | .hbm, ⟨56, _⟩ => ⟨S131072x64, .f32⟩
  | .hbm, ⟨57, _⟩ => ⟨S131072x64, .f32⟩
  | .hbm, ⟨58, _⟩ => ⟨S131072x64, .f32⟩
  | .hbm, ⟨59, _⟩ => ⟨S131072x64, .f32⟩
  | .hbm, ⟨60, _⟩ => ⟨S131072x64, .f32⟩
  | .hbm, ⟨61, _⟩ => ⟨S131072x64, .f32⟩
  | .hbm, ⟨62, _⟩ => ⟨S131072x64, .f32⟩
  | .hbm, ⟨63, _⟩ => ⟨S131072x1, .f32⟩
  | .hbm, ⟨64, _⟩ => ⟨S1x1, .f32⟩
  | .hbm, ⟨65, _⟩ => ⟨S131072x1, .f32⟩
  | .hbm, ⟨66, _⟩ => ⟨S131072x1, .f32⟩
  | .hbm, ⟨67, _⟩ => ⟨S131072x1, .f32⟩
  | .hbm, ⟨68, _⟩ => ⟨S2x1x4194304, .f32⟩
  | .hbm, ⟨69, _⟩ => ⟨S2x1x4194304, .f32⟩
  | .hbm, ⟨70, _⟩ => ⟨S1x1x4194304, .f32⟩
  | .hbm, ⟨71, _⟩ => ⟨S1x4194304, .f32⟩
  | .hbm, ⟨72, _⟩ => ⟨S1x1x4194304, .f32⟩
  | .hbm, ⟨73, _⟩ => ⟨S1x4194304, .f32⟩
  | .hbm, ⟨74, _⟩ => ⟨S1x1x4194304, .f32⟩
  | .hbm, ⟨75, _⟩ => ⟨S1x4194304, .f32⟩
  | .hbm, ⟨76, _⟩ => ⟨S1x1x4194304, .f32⟩
  | .hbm, ⟨77, _⟩ => ⟨S1x4194304, .f32⟩
  | _, _ => ⟨S131072x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_cst_0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_1 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]

class Facts₀ : Prop where
  concatenates_S131072x192_S131072x32_S131072x224_d1 : Shape.Concatenates [S131072x192, S131072x32] S131072x224 1
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  slices_S131072x256_S131072x64_0_0 : S131072x256.Slices ![0, 0] S131072x64
  slices_S131072x256_S131072x64_0_64 : S131072x256.Slices ![0, 64] S131072x64
  slices_S131072x256_S131072x64_0_128 : S131072x256.Slices ![0, 128] S131072x64
  slices_S131072x256_S131072x64_0_192 : S131072x256.Slices ![0, 192] S131072x64
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  shapeCasts_S131072x64_S2x1x4194304 : S131072x64.ShapeCasts S2x1x4194304
  slices_S2x1x4194304_S1x1x4194304_0_0_0 : S2x1x4194304.Slices ![0, 0, 0] S1x1x4194304
  shapeCasts_S1x1x4194304_S1x4194304 : S1x1x4194304.ShapeCasts S1x4194304
  slices_S2x1x4194304_S1x1x4194304_1_0_0 : S2x1x4194304.Slices ![1, 0, 0] S1x1x4194304
  dot_S131072x224_S224x64_S131072x64_1_0_0_1_n_n_wf : DotDims.WF S131072x224 S224x64 S131072x64 [1] [0] [0] [1] [] []
  dot_S131072x64_S64x256_S131072x256_1_0_0_1_n_n_wf : DotDims.WF S131072x64 S64x256 S131072x256 [1] [0] [0] [1] [] []
  dot_S131072x64_S64x1_S131072x1_1_0_0_1_n_n_wf : DotDims.WF S131072x64 S64x1 S131072x1 [1] [0] [0] [1] [] []

variable [Facts₀]

def dot_S131072x224_S224x64_S131072x64_1_0_0_1_n_n : DotDims S131072x224 S224x64 S131072x64 where
  lhsContracting := [1]
  rhsContracting := [0]
  lhsNonContracting := [0]
  rhsNonContracting := [1]
  lhsBatch := []
  rhsBatch := []
  wf := dot_S131072x224_S224x64_S131072x64_1_0_0_1_n_n_wf
def dot_S131072x64_S64x256_S131072x256_1_0_0_1_n_n : DotDims S131072x64 S64x256 S131072x256 where
  lhsContracting := [1]
  rhsContracting := [0]
  lhsNonContracting := [0]
  rhsNonContracting := [1]
  lhsBatch := []
  rhsBatch := []
  wf := dot_S131072x64_S64x256_S131072x256_1_0_0_1_n_n_wf
def dot_S131072x64_S64x1_S131072x1_1_0_0_1_n_n : DotDims S131072x64 S64x1 S131072x1 where
  lhsContracting := [1]
  rhsContracting := [0]
  lhsNonContracting := [0]
  rhsNonContracting := [1]
  lhsBatch := []
  rhsBatch := []
  wf := dot_S131072x64_S64x1_S131072x1_1_0_0_1_n_n_wf

class Facts : Prop extends Facts₀ where

variable [Facts]
-- ==== Proof.Halves.lean ====
/-
  The two halves of a 131072 × 64 array.

  Both programs end by laying the 8388608 entries of the new hidden state, and of the new cell state, out as
  2 × 1 × 4194304 in row-major order, cutting out slab 0 or slab 1, and dropping the unit axis: the result is the first
  or the second half of the entries as a 1 × 4194304 row. The operation is the same text in both programs and is
  never opened: equal arrays have equal halves.
-/
import Idealize.ShloMosaic.PureOps.Ideal
import Idealize.ShloMosaic.PureOps.ShapeOps

noncomputable section

namespace Cert.Lstm

open Idealize.ShloMosaic

/-- Slab `o` (0 or 1) of a 131072 × 64 array re-laid as 2 × 1 × 4194304, as a 1 × 4194304 row. The three layout
    facts are whatever proofs the caller has. -/
def half (o : ℕ) (h1 : (⟨2, ![131072, 64]⟩ : Shape).ShapeCasts ⟨3, ![2, 1, 4194304]⟩)
    (h2 : (⟨3, ![2, 1, 4194304]⟩ : Shape).Slices ![o, 0, 0] ⟨3, ![1, 1, 4194304]⟩)
    (h3 : (⟨3, ![1, 1, 4194304]⟩ : Shape).ShapeCasts ⟨2, ![1, 4194304]⟩)
    (X : FVec Ideal ⟨2, ![131072, 64]⟩ .f32) : FVec Ideal ⟨2, ![1, 4194304]⟩ .f32 :=
  shapeCast ⟨2, ![1, 4194304]⟩ (extractStridedSlice ⟨3, ![1, 1, 4194304]⟩ ![o, 0, 0] (shapeCast ⟨3, ![2, 1, 4194304]⟩ X h1) h2) h3

end Cert.Lstm

end
-- ==== Proof.CellSpec.lean ====
/-
  One step of a long short-term memory cell, row by row: the specification both programs meet.

  Each of the 131072 rows is independent. A row carries an observation s (192 entries), an action a (32), a hidden
  state h (64) and a cell state c (64). With weights Ws (192 x 64), Wa (32 x 64) and a bias b the input is projected and
  rectified,
      x_j = max (sum_k s_k Ws_kj + sum_k a_k Wa_kj + b_j) 0,
  the four gates' 256 pre-activations are
      g_q = (sum_k x_k Wi_kq + sum_k h_k Wh_kq) + beta_q,
  and with sigma the logistic function
      c'_j = sigma (g_(64+j)) c_j + sigma (g_j) tanh (g_(128+j)),      h'_j = sigma (g_(192+j)) tanh c'_j,
      out  = tanh (sum_k h'_k w_k + b_out).
  Everything is over the extended reals; only sums, products, max, the logistic function and tanh occur, so the
  functions are total and no finiteness is assumed anywhere.
-/
import Idealize.ShloMosaic.PureOps.Ideal
import Idealize.ShloMosaic.Lib.ValueIdx

noncomputable section

open scoped BigOperators

namespace Cert.Lstm

open Idealize.ShloMosaic Idealize.ShloMosaic.ValueIdx

/-- The rectified input projection of one row, entry `j`. The zero of the rectifier is the single-precision zero
    word, kept as a word: both programs compare against the same one. -/
def proj (s : Fin 192 → EReal) (a : Fin 32 → EReal) (Ws : Fin 192 → Fin 64 → EReal) (Wa : Fin 32 → Fin 64 → EReal)
    (b : Fin 64 → EReal) (j : Fin 64) : EReal :=
  max ((∑ k, s k * Ws k j + ∑ k, a k * Wa k j) + b j) (Ideal.ofBits .f32 0x00000000#32)

/-- The gates' pre-activations of one row, entry `q` of 256: input part plus recurrent part, plus the bias. -/
def gate (x h : Fin 64 → EReal) (Wi Wh : Fin 64 → Fin 256 → EReal) (β : Fin 256 → EReal) (q : Fin 256) : EReal :=
  (∑ k, x k * Wi k q + ∑ k, h k * Wh k q) + β q

/-- Entry `j` of the gate block that starts at column `o` (0: input, 64: forget, 128: candidate, 192: output). -/
def blk (g : Fin 256 → EReal) (o : ℕ) (ho : o + 64 ≤ 256) (j : Fin 64) : EReal :=
  g ⟨o + j.val, by have := j.isLt; omega⟩

/-- The new cell state of one row, entry `j`. -/
def cellC (g : Fin 256 → EReal) (c : Fin 64 → EReal) (j : Fin 64) : EReal :=
  FloatOps.logistic (F := Ideal) (φ := .f32) (blk g 64 (by omega) j) * c j
    + FloatOps.logistic (F := Ideal) (φ := .f32) (blk g 0 (by omega) j)
        * FloatOps.tanh (F := Ideal) (φ := .f32) (blk g 128 (by omega) j)

/-- The new hidden state of one row, entry `j`. -/
def cellH (g : Fin 256 → EReal) (c : Fin 64 → EReal) (j : Fin 64) : EReal :=
  FloatOps.logistic (F := Ideal) (φ := .f32) (blk g 192 (by omega) j)
    * FloatOps.tanh (F := Ideal) (φ := .f32) (cellC g c j)

/-- The output head of one row: tanh of the new hidden state's inner product with `w`, plus the bias. -/
def head (h : Fin 64 → EReal) (w : Fin 64 → EReal) (b : EReal) : EReal :=
  FloatOps.tanh (F := Ideal) (φ := .f32) ((∑ k, h k * w k) + b)

/-- Row `r` of an `n × k` array. -/
def row {n k : ℕ} (X : (⟨2, ![n, k]⟩ : Shape).Idx → EReal) (r : Fin n) : Fin k → EReal := fun c => X (ix2 r c)

/-- The twelve argument arrays. -/
structure Args where
  state : FVec Ideal ⟨2, ![131072, 192]⟩ .f32
  action : FVec Ideal ⟨2, ![131072, 32]⟩ .f32
  hidden : FVec Ideal ⟨2, ![131072, 64]⟩ .f32
  cell : FVec Ideal ⟨2, ![131072, 64]⟩ .f32
  Win : FVec Ideal ⟨2, ![224, 64]⟩ .f32
  bin : FVec Ideal ⟨1, ![64]⟩ .f32
  Wi : FVec Ideal ⟨2, ![64, 256]⟩ .f32
  bi : FVec Ideal ⟨1, ![256]⟩ .f32
  Wh : FVec Ideal ⟨2, ![64, 256]⟩ .f32
  bh : FVec Ideal ⟨1, ![256]⟩ .f32
  Wout : FVec Ideal ⟨2, ![64, 1]⟩ .f32
  bout : FVec Ideal ⟨1, ![1]⟩ .f32

/-- Rows 0..191 of the input weight: the observation's part. -/
def Args.Ws (A : Args) : Fin 192 → Fin 64 → EReal := fun k j => A.Win (ix2 ⟨k.val, by have := k.isLt; omega⟩ j)
/-- Rows 192..223 of the input weight: the action's part. -/
def Args.Wa (A : Args) : Fin 32 → Fin 64 → EReal := fun k j => A.Win (ix2 ⟨192 + k.val, by have := k.isLt; omega⟩ j)

/-- The rectified projection of row `r`. -/
def Args.x (A : Args) (r : Fin 131072) : Fin 64 → EReal :=
  proj (row A.state r) (row A.action r) A.Ws A.Wa (fun j => A.bin (ix1 j))

/-- The 256 gate pre-activations of row `r`, the two biases summed first. -/
def Args.g (A : Args) (r : Fin 131072) : Fin 256 → EReal :=
  gate (A.x r) (row A.hidden r) (fun k q => A.Wi (ix2 k q)) (fun k q => A.Wh (ix2 k q))
    (fun q => A.bi (ix1 q) + A.bh (ix1 q))

/-- The new cell state, all rows. -/
def Args.newC (A : Args) : FVec Ideal ⟨2, ![131072, 64]⟩ .f32 := fun i => cellC (A.g (i 0)) (row A.cell (i 0)) (i 1)
/-- The new hidden state, all rows. -/
def Args.newH (A : Args) : FVec Ideal ⟨2, ![131072, 64]⟩ .f32 := fun i => cellH (A.g (i 0)) (row A.cell (i 0)) (i 1)
/-- The output column. -/
def Args.out (A : Args) : FVec Ideal ⟨2, ![131072, 1]⟩ .f32 := fun i =>
  head (fun k => cellH (A.g (i 0)) (row A.cell (i 0)) k) (fun k => A.Wout (ix2 k (0 : Fin 1))) (A.bout (ix1 (0 : Fin 1)))

end Cert.Lstm

end
-- ==== Proof.LibSigmoid.lean ====
/-
  The logistic function over the extended reals, against the quotient a host program spells for it.

  Over the extended reals the logistic function is by definition the quotient 1 / (1 + e^(-x)), with the
  conventions e^(-oo) = 0 and e^(+oo) = +oo, so that it is 0 at -oo and 1 at +oo. A host program that expands the
  sigmoid writes that very quotient with its own negation, exponential, sum and quotient, and with the
  single-precision word 0x3F800000 for the numerator and the summand; that word denotes the real number 1. Hence a
  kernel's one-operation logistic and the host's four-operation expansion are the same function of x, at every
  extended real x, the infinities included: no finiteness is needed.

  With tanh likewise one function on both sides, a gated recurrent cell
      r = s(a_r + b_r),  z = s(a_z + b_z),  n = tanh(a_n + r * b_n),  h' = (1 - z) * n + z * h
  computed with s the logistic operation is, entry by entry, the cell computed with s the spelled-out quotient.
-/
import Idealize.ShloMosaic.PureOps.Ideal
import Idealize.ShloMosaic.PureOps.Vector

noncomputable section

namespace Cert.Lib.Sigmoid

open Idealize.ShloMosaic

/-- The single-precision word 0x3F800000 denotes the real number 1. -/
theorem ofBits_one_f32 : Ideal.ofBits .f32 0x3F800000#32 = 1 := by
  simp [Ideal.ofBits, Ideal.ieee, -EReal.coe_mul]; norm_num

/-- At one extended real: the logistic operation is the host's spelled-out quotient 1 / (1 + exp (-x)). -/
theorem logistic_eq_quotient (x : Ideal .f32) :
    FloatOps.logistic x
      = FloatOps.hostDivf (Ideal.ofBits .f32 0x3F800000#32)
          (FloatOps.addf (Ideal.ofBits .f32 0x3F800000#32) (FloatOps.hostUnary .exp (FloatOps.hostNegf x))) := by
  rw [ofBits_one_f32]; rfl

/-- Over a whole vector of any shape: a kernel's logistic of x is the host's quotient of the all-ones vector by the
    all-ones vector plus the exponential of the negated x, the all-ones vectors being any vectors one that hold the
    word 0x3F800000 at every index. -/
theorem vec_logistic_eq_quotient {s : Shape} (one one' x : FVec Ideal s .f32)
    (h1 : ∀ i, one i = Ideal.ofBits .f32 0x3F800000#32) (h1' : ∀ i, one' i = Ideal.ofBits .f32 0x3F800000#32) :
    logistic x = Host.divf one (addf one' (Host.exp (Host.negf x))) := by
  funext i
  simp only [logistic, Host.divf, addf, Host.exp, Host.negf, h1 i, h1' i]
  exact logistic_eq_quotient (x i)

/-- tanh is one function whether a kernel or a host program applies it. -/
theorem vec_tanh_eq_host {s : Shape} (x : FVec Ideal s .f32) : tanh x = Host.tanh x := rfl

/-- One gated recurrent cell, over vectors of any shape. With gate pre-activations a_r + b_r, a_z + b_z and
    a_n + r * b_n and the old state h, the new state (1 - z) * n + z * h computed with the kernel's operations (the
    logistic operation, tanh, the scalar 1 broadcast) is the new state computed with the host's (the quotient
    1 / (1 + exp (-x)) for each gate, the host's tanh, all-ones vectors), entry by entry, at every extended real. -/
theorem gru_cell_eq {s : Shape} (ar br az bz an bn h : FVec Ideal s .f32)
    (one_r one_r' one_z one_z' one_s : FVec Ideal s .f32)
    (hr : ∀ i, one_r i = Ideal.ofBits .f32 0x3F800000#32) (hr' : ∀ i, one_r' i = Ideal.ofBits .f32 0x3F800000#32)
    (hz : ∀ i, one_z i = Ideal.ofBits .f32 0x3F800000#32) (hz' : ∀ i, one_z' i = Ideal.ofBits .f32 0x3F800000#32)
    (hs : ∀ i, one_s i = Ideal.ofBits .f32 0x3F800000#32) :
    addf (mulf (subf (broadcast s (Scalar.ofBits .f32 0x3F800000#32)) (logistic (addf az bz)))
            (tanh (addf an (mulf (logistic (addf ar br)) bn))))
         (mulf (logistic (addf az bz)) h)
      = addf (mulf (subf one_s (Host.divf one_z (addf one_z' (Host.exp (Host.negf (addf az bz))))))
                (Host.tanh (addf an (mulf (Host.divf one_r (addf one_r' (Host.exp (Host.negf (addf ar br))))) bn))))
             (mulf (Host.divf one_z (addf one_z' (Host.exp (Host.negf (addf az bz))))) h) := by
  have hb : broadcast s (Scalar.ofBits (F := Ideal) .f32 0x3F800000#32) = one_s := funext fun i => (hs i).symm
  rw [← vec_logistic_eq_quotient one_r one_r' (addf ar br) hr hr', ← vec_logistic_eq_quotient one_z one_z' (addf az bz) hz hz',
    ← vec_tanh_eq_host, hb]

end Cert.Lib.Sigmoid

end
-- ==== Proof.LibTwoBlocks.lean ====
/-
  Three readings, at an entry, that come up when one matrix product over a joined axis is compared with two products
  over its parts, for any sizes.

  * A sum over `n = a + b` indices is the sum over the first `a` plus the sum over the last `b` (in any commutative
    monoid: only the grouping changes).
  * An `M × K` by `K × N` matrix product accumulated into zero reads, at `(p, q)`, the sum over `c` of
    `A (p, c) * B (c, q)`.
  * Two matrices with the same number of columns stacked one above the other read, at `(i, j)`, the upper one at
    `(i, j)` for a row of the upper piece and the lower one at `(i - a₁, j)` otherwise.
-/
import Mathlib.Algebra.BigOperators.Fin
import Idealize.ShloMosaic.Lib.Pipeline.Value
import Idealize.ShloMosaic.Lib.ValueIdx
import Idealize.ShloMosaic.PureOps.Ideal.Laws

noncomputable section

open scoped BigOperators

namespace Cert.Lib.TwoBlocks

open Idealize.ShloMosaic Idealize.ShloMosaic.ValueIdx

/-- A sum over `a + b` indices as the sum over the first `a` plus the sum over the last `b`. -/
theorem sum_two_blocks {M : Type*} [AddCommMonoid M] {a b n : ℕ} (hn : a + b = n) (f : Fin n → M) :
    ∑ k, f k = ∑ k : Fin a, f ⟨k.val, by have := k.isLt; omega⟩ + ∑ k : Fin b, f ⟨a + k.val, by have := k.isLt; omega⟩ := by
  subst hn
  rw [Fin.sum_univ_add]
  exact congrArg₂ (· + ·) (Finset.sum_congr rfl fun k _ => congrArg f (Fin.ext rfl))
    (Finset.sum_congr rfl fun k _ => congrArg f (Fin.ext rfl))

/-- An `M × K` by `K × N` product into the zero accumulator reads, at `(p, q)`, the sum over the shared axis. The
    dimension numbers are any that contract the left operand's columns with the right operand's rows and batch
    nothing (`hD`). -/
theorem plain_matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (p : Fin M) (q : Fin N) :
    matmul D prec A B (constant ⟨2, ![M, N]⟩ .f32 0x00000000#32) (ix2 p q) = ∑ c : Fin K, A (ix2 p c) * B (ix2 c q) := by
  subst hD
  show FloatOps.matmul (DotDims.plain M K N) prec A B _ (ix2 p q) = _
  rw [Ideal.matmul_constant_zero_apply, ← Equiv.sum_comp (contrEquiv1 (DotDims.plain M K N) K rfl rfl).symm]
  refine Finset.sum_congr rfl fun c _ => ?_
  have hk := contrEquiv1_symm_val (DotDims.plain M K N) K rfl rfl c
  have el : (DotDims.plain M K N).lhsIdx (ix2 p q) ((contrEquiv1 (DotDims.plain M K N) K rfl rfl).symm c) = ix2 p c :=
    funext fun ax => Fin.ext (by
      match ax with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm c) = ix2 c q :=
    funext fun ax => Fin.ext (by
      match ax with
      | ⟨0, _⟩ => exact ((DotDims.plain M K N).rhsIdx_val_of_single rfl (ix2 p q) _).trans hk
      | ⟨1, _⟩ => rfl)
  rw [el, er]

variable {α : Type}

/-- A row of the upper piece: the stack at `(i, j)` with `i = k < a₁` is the upper piece at `(k, j)`. -/
theorem concat_rows_upper {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₁) (hk : k.val = i.val) :
    concatenate ⟨2, ![n, b]⟩ 0 [⟨⟨2, ![a₁, b]⟩, x₁⟩, ⟨⟨2, ![a₂, b]⟩, x₂⟩] h (ix2 i j) = x₁ (ix2 k j) :=
  concatenate_pair_apply_left (t := ⟨2, ![n, b]⟩) 0 x₁ x₂ h (ix2 i j) rfl (ix2 k j) (fun ax => by
    match ax with
    | ⟨0, _⟩ => exact hk
    | ⟨1, _⟩ => rfl)

/-- A row of the lower piece: the stack at `(i, j)` with `i = a₁ + k` is the lower piece at `(k, j)`. -/
theorem concat_rows_lower {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₂) (hk : a₁ + k.val = i.val) :
    concatenate ⟨2, ![n, b]⟩ 0 [⟨⟨2, ![a₁, b]⟩, x₁⟩, ⟨⟨2, ![a₂, b]⟩, x₂⟩] h (ix2 i j) = x₂ (ix2 k j) :=
  concatenate_pair_apply_right (t := ⟨2, ![n, b]⟩) 0 x₁ x₂ h (ix2 i j) rfl rfl (ix2 k j) (fun ax hb => by
    match ax with
    | ⟨0, _⟩ => exact absurd rfl hb
    | ⟨1, _⟩ => rfl) (by
    show k.val + a₁ = i.val
    omega)

end Cert.Lib.TwoBlocks

end
-- ==== Proof.LibConcatCols.lean ====
/-
  Two matrices with the same number of rows set side by side, read at an entry, for any sizes.

  The concatenation of an `a × b₁` matrix and an `a × b₂` matrix along the columns is an `a × n` matrix with
  `n = b₁ + b₂`. Its entry `(i, j)` is the first matrix's entry `(i, j)` when `j < b₁`, and the second matrix's
  entry `(i, j - b₁)` otherwise. The two lemmas below say so with the caller naming the piece's column `k`.
-/
import Idealize.ShloMosaic.Lib.Pipeline.Value
import Idealize.ShloMosaic.Lib.ValueIdx

noncomputable section

namespace Cert.Lib.ConcatCols

open Idealize.ShloMosaic Idealize.ShloMosaic.ValueIdx

variable {α : Type}

/-- A column of the left piece: the concatenation at `(i, j)` with `j = k < b₁` is the left piece at `(i, k)`. -/
theorem concat_cols_left {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1)
    (i : Fin a) (j : Fin n) (k : Fin b₁) (hk : k.val = j.val) :
    concatenate ⟨2, ![a, n]⟩ 1 [⟨⟨2, ![a, b₁]⟩, x₁⟩, ⟨⟨2, ![a, b₂]⟩, x₂⟩] h (ix2 i j) = x₁ (ix2 i k) :=
  concatenate_pair_apply_left (t := ⟨2, ![a, n]⟩) 1 x₁ x₂ h (ix2 i j) rfl (ix2 i k) (fun b => by
    match b with
    | ⟨0, _⟩ => rfl
    | ⟨1, _⟩ => exact hk)

/-- A column of the right piece: the concatenation at `(i, j)` with `j = b₁ + k` is the right piece at `(i, k)`. -/
theorem concat_cols_right {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1)
    (i : Fin a) (j : Fin n) (k : Fin b₂) (hk : b₁ + k.val = j.val) :
    concatenate ⟨2, ![a, n]⟩ 1 [⟨⟨2, ![a, b₁]⟩, x₁⟩, ⟨⟨2, ![a, b₂]⟩, x₂⟩] h (ix2 i j) = x₂ (ix2 i k) :=
  concatenate_pair_apply_right (t := ⟨2, ![a, n]⟩) 1 x₁ x₂ h (ix2 i j) rfl rfl (ix2 i k) (fun b hb => by
    match b with
    | ⟨0, _⟩ => rfl
    | ⟨1, _⟩ => exact absurd rfl hb) (by
    show k.val + b₁ = j.val
    omega)

end Cert.Lib.ConcatCols

end
-- ==== Proof.RefGates.lean ====
/-
  The reference program's gate pre-activations, read at an entry, against the row-by-row specification.

  The program joins the observation and the action along the columns and multiplies the joined 224 columns by the
  input weight; the sum over the 224 joined columns is the sum over the observation's 192 columns plus the sum over the
  action's 32, each against its own rows of the weight. The bias is added and the result rectified against the
  single-precision zero word. The gates are the rectified row against the input weight plus the hidden row against the
  recurrent weight, plus one bias, plus the other; the specification adds the two biases' sum instead, which is the
  same by associativity. Only sums are regrouped: nothing here needs a finite value.
-/
import proofs.«132099_j39737037422777_2_alg».proof.Proof.Gen.ReferenceIdeal.Read
import proofs.«132099_j39737037422777_2_alg».proof.Proof.CellSpec
import proofs.«132099_j39737037422777_2_alg».proof.Proof.LibTwoBlocks
import proofs.«132099_j39737037422777_2_alg».proof.Proof.LibConcatCols
import proofs.«132099_j39737037422777_2_alg».proof.Proof.LibSigmoid
import Idealize.ShloMosaic.Lib.ValueIdx
import Idealize.ShloMosaic.Lib.Pipeline.Value
import Idealize.ShloMosaic.PureOps.Ideal.Laws

noncomputable section

open scoped BigOperators

namespace Cert.Lstm.Ref

open Idealize.ShloMosaic Idealize.ShloMosaic.ValueIdx Cert.ReferenceIdeal Cert.ReferenceIdeal.Read

variable (x0 : (⟨S131072x192, .f32⟩ : BufTy).Contents (Elt Ideal)) (x1 : (⟨S131072x32, .f32⟩ : BufTy).Contents (Elt Ideal))
  (x2 x3 : (⟨S131072x64, .f32⟩ : BufTy).Contents (Elt Ideal)) (x4 : (⟨S224x64, .f32⟩ : BufTy).Contents (Elt Ideal))
  (x5 : (⟨S64, .f32⟩ : BufTy).Contents (Elt Ideal)) (x6 : (⟨S64x256, .f32⟩ : BufTy).Contents (Elt Ideal))
  (x7 : (⟨S256, .f32⟩ : BufTy).Contents (Elt Ideal)) (x8 : (⟨S64x256, .f32⟩ : BufTy).Contents (Elt Ideal))
  (x9 : (⟨S256, .f32⟩ : BufTy).Contents (Elt Ideal)) (x10 : (⟨S64x1, .f32⟩ : BufTy).Contents (Elt Ideal))
  (x11 : (⟨S1, .f32⟩ : BufTy).Contents (Elt Ideal))

local notation "𝐀" => (Cert.Lstm.Args.mk x0 x1 x2 x3 x4 x5 x6 x7 x8 x9 x10 x11)

/-- The joined row at a column of the first piece. -/
theorem cat_left (r : Fin 131072) (k : Fin 192) :
    val_main_v0 (F := Ideal) x0 x1 (ix2 r ⟨k.val, by have := k.isLt; omega⟩) = x0 (ix2 r k) :=
  Cert.Lib.ConcatCols.concat_cols_left x0 x1 _ r _ k rfl

/-- The joined row at a column of the second piece. -/
theorem cat_right (r : Fin 131072) (k : Fin 32) :
    val_main_v0 (F := Ideal) x0 x1 (ix2 r ⟨192 + k.val, by have := k.isLt; omega⟩) = x1 (ix2 r k) :=
  Cert.Lib.ConcatCols.concat_cols_right x0 x1 _ r _ k rfl

theorem lidx1 (r : Fin 131072) (j : Fin 64) (k : Fin 224) : lidx_main_v1 (ix2 r j) k = ix2 r k :=
  funext fun a => Fin.ext (by match a with | ⟨0, _⟩ => rfl | ⟨1, _⟩ => rfl)

theorem ridx1 (r : Fin 131072) (j : Fin 64) (k : Fin 224) : ridx_main_v1 (ix2 r j) k = ix2 k j :=
  funext fun a => Fin.ext (by match a with | ⟨0, _⟩ => rfl | ⟨1, _⟩ => rfl)

theorem bidx1 (r : Fin 131072) (j : Fin 64) : idx_main_v2 (idx_main_v3 (ix2 r j)) = ix1 j :=
  funext fun a => Fin.ext (by match a with | ⟨0, _⟩ => rfl)

/-- The first product at an entry: the sum over the 224 joined columns is the sum over the observation's 192 plus the
    sum over the action's 32. -/
theorem v1_eq (r : Fin 131072) (j : Fin 64) :
    val_main_v1 (F := Ideal) x0 x1 x4 (ix2 r j)
      = ∑ k : Fin 192, x0 (ix2 r k) * (𝐀).Ws k j + ∑ k : Fin 32, x1 (ix2 r k) * (𝐀).Wa k j := by
  rw [val_main_v1_apply, Cert.Lib.TwoBlocks.sum_two_blocks (a := 192) (b := 32) rfl]
  refine congrArg₂ (· + ·) (Finset.sum_congr rfl fun k _ => ?_) (Finset.sum_congr rfl fun k _ => ?_)
  · rw [lidx1, ridx1, cat_left]; rfl
  · rw [lidx1, ridx1, cat_right]; rfl

/-- The rectified projection at an entry. -/
theorem x_eq (r : Fin 131072) (j : Fin 64) :
    val_main_v5 (F := Ideal) x0 x1 x4 x5 (ix2 r j) = (𝐀).x r j := by
  rw [val_main_v5_apply, val_main_v4_apply, v1_eq x0 x1 x2 x3 x4 x5 x6 x7 x8 x9 x10 x11, val_main_v3_apply, val_main_v2_apply,
    val_main_call0_v0_apply, val_main_call0_cst_apply, bidx1]
  rfl

theorem lidx6 (r : Fin 131072) (q : Fin 256) (k : Fin 64) : lidx_main_v6 (ix2 r q) k = ix2 r k :=
  funext fun a => Fin.ext (by match a with | ⟨0, _⟩ => rfl | ⟨1, _⟩ => rfl)

theorem ridx6 (r : Fin 131072) (q : Fin 256) (k : Fin 64) : ridx_main_v6 (ix2 r q) k = ix2 k q :=
  funext fun a => Fin.ext (by match a with | ⟨0, _⟩ => rfl | ⟨1, _⟩ => rfl)

theorem lidx7 (r : Fin 131072) (q : Fin 256) (k : Fin 64) : lidx_main_v7 (ix2 r q) k = ix2 r k :=
  funext fun a => Fin.ext (by match a with | ⟨0, _⟩ => rfl | ⟨1, _⟩ => rfl)

theorem ridx7 (r : Fin 131072) (q : Fin 256) (k : Fin 64) : ridx_main_v7 (ix2 r q) k = ix2 k q :=
  funext fun a => Fin.ext (by match a with | ⟨0, _⟩ => rfl | ⟨1, _⟩ => rfl)

theorem bidx9 (r : Fin 131072) (q : Fin 256) : idx_main_v9 (idx_main_v10 (ix2 r q)) = ix1 q :=
  funext fun a => Fin.ext (by match a with | ⟨0, _⟩ => rfl)

theorem bidx12 (r : Fin 131072) (q : Fin 256) : idx_main_v12 (idx_main_v13 (ix2 r q)) = ix1 q :=
  funext fun a => Fin.ext (by match a with | ⟨0, _⟩ => rfl)

/-- The input part of the gates at an entry: the rectified projection's row against the input weight. -/
theorem v6_eq (r : Fin 131072) (q : Fin 256) :
    val_main_v6 (F := Ideal) x0 x1 x4 x5 x6 (ix2 r q) = ∑ k : Fin 64, (𝐀).x r k * x6 (ix2 k q) := by
  rw [val_main_v6_apply]
  exact Finset.sum_congr rfl fun k _ => by
    rw [lidx6, ridx6, x_eq x0 x1 x2 x3 x4 x5 x6 x7 x8 x9 x10 x11]

/-- The recurrent part of the gates at an entry: the hidden state's row against the recurrent weight. -/
theorem v7_eq (r : Fin 131072) (q : Fin 256) :
    val_main_v7 (F := Ideal) x2 x8 (ix2 r q) = ∑ k : Fin 64, x2 (ix2 r k) * x8 (ix2 k q) := by
  rw [val_main_v7_apply]
  exact Finset.sum_congr rfl fun k _ => by rw [lidx7, ridx7]

/-- The gates' pre-activations at an entry. The program adds the two biases one after the other; the specification
    adds their sum: associativity of the sum. -/
theorem gates_eq (r : Fin 131072) (q : Fin 256) :
    val_main_v14 (F := Ideal) x0 x1 x2 x4 x5 x6 x7 x8 x9 (ix2 r q) = (𝐀).g r q := by
  rw [val_main_v14_apply, val_main_v11_apply, val_main_v8_apply, v6_eq x0 x1 x2 x3 x4 x5 x6 x7 x8 x9 x10 x11, v7_eq,
    val_main_v10_apply, val_main_v9_apply, val_main_v13_apply, val_main_v12_apply, bidx9, bidx12]
  exact add_assoc _ _ _

end Cert.Lstm.Ref

end
-- ==== Proof.RefSide.lean ====
/-
  The reference program's three results against the row-by-row specification of the cell.

  The gates' 256 pre-activations of a row are cut into four blocks of 64 columns. Three of them go through the quotient
  1 / (1 + exp (-x)), written with the single-precision word of 1, a negation, an exponential, a sum and a quotient:
  that quotient is the logistic function of x, at every extended real. The fourth goes through tanh. Then
      c' = sigma(forget) * c + sigma(input) * tanh(candidate),   h' = sigma(output) * tanh c',
  and the output is tanh of the row h' against the output weight's single column, plus the bias. Each step is read at
  an entry and matches the specification's expression term by term; no value is assumed finite.
-/
import proofs.«132099_j39737037422777_2_alg».proof.Proof.Gen.ReferenceIdeal.Read
import proofs.«132099_j39737037422777_2_alg».proof.Proof.CellSpec
import proofs.«132099_j39737037422777_2_alg».proof.Proof.LibSigmoid
import proofs.«132099_j39737037422777_2_alg».proof.Proof.RefGates
import Idealize.ShloMosaic.Lib.ValueIdx
import Idealize.ShloMosaic.Lib.Pipeline.Value
import Idealize.ShloMosaic.PureOps.Ideal.Laws

noncomputable section

open scoped BigOperators

namespace Cert.Lstm.Ref

open Idealize.ShloMosaic Idealize.ShloMosaic.ValueIdx Cert.ReferenceIdeal Cert.ReferenceIdeal.Read

variable (x0 : (⟨S131072x192, .f32⟩ : BufTy).Contents (Elt Ideal)) (x1 : (⟨S131072x32, .f32⟩ : BufTy).Contents (Elt Ideal))
  (x2 x3 : (⟨S131072x64, .f32⟩ : BufTy).Contents (Elt Ideal)) (x4 : (⟨S224x64, .f32⟩ : BufTy).Contents (Elt Ideal))
  (x5 : (⟨S64, .f32⟩ : BufTy).Contents (Elt Ideal)) (x6 : (⟨S64x256, .f32⟩ : BufTy).Contents (Elt Ideal))
  (x7 : (⟨S256, .f32⟩ : BufTy).Contents (Elt Ideal)) (x8 : (⟨S64x256, .f32⟩ : BufTy).Contents (Elt Ideal))
  (x9 : (⟨S256, .f32⟩ : BufTy).Contents (Elt Ideal)) (x10 : (⟨S64x1, .f32⟩ : BufTy).Contents (Elt Ideal))
  (x11 : (⟨S1, .f32⟩ : BufTy).Contents (Elt Ideal))

local notation "𝐀" => (Cert.Lstm.Args.mk x0 x1 x2 x3 x4 x5 x6 x7 x8 x9 x10 x11)

/-- Columns 0..63 of the gates at an entry. -/
theorem blk_i (r : Fin 131072) (j : Fin 64) :
    val_main_v15 (F := Ideal) x0 x1 x2 x4 x5 x6 x7 x8 x9 (ix2 r j) = blk ((𝐀).g r) 0 (by omega) j := by
  have e : idx_main_v15 (ix2 r j) = ix2 r ⟨0 + j.val, by have := j.isLt; omega⟩ :=
    funext fun a => Fin.ext (by match a with | ⟨0, _⟩ => rfl | ⟨1, _⟩ => exact (Nat.zero_add _).symm)
  rw [val_main_v15_apply, e, gates_eq x0 x1 x2 x3 x4 x5 x6 x7 x8 x9 x10 x11]
  rfl

/-- Columns 64..127 of the gates at an entry. -/
theorem blk_f (r : Fin 131072) (j : Fin 64) :
    val_main_v16 (F := Ideal) x0 x1 x2 x4 x5 x6 x7 x8 x9 (ix2 r j) = blk ((𝐀).g r) 64 (by omega) j := by
  have e : idx_main_v16 (ix2 r j) = ix2 r ⟨64 + j.val, by have := j.isLt; omega⟩ :=
    funext fun a => Fin.ext (by match a with | ⟨0, _⟩ => rfl | ⟨1, _⟩ => rfl)
  rw [val_main_v16_apply, e, gates_eq x0 x1 x2 x3 x4 x5 x6 x7 x8 x9 x10 x11]
  rfl

/-- Columns 128..191 of the gates at an entry. -/
theorem blk_g (r : Fin 131072) (j : Fin 64) :
    val_main_v17 (F := Ideal) x0 x1 x2 x4 x5 x6 x7 x8 x9 (ix2 r j) = blk ((𝐀).g r) 128 (by omega) j := by
  have e : idx_main_v17 (ix2 r j) = ix2 r ⟨128 + j.val, by have := j.isLt; omega⟩ :=
    funext fun a => Fin.ext (by match a with | ⟨0, _⟩ => rfl | ⟨1, _⟩ => rfl)
  rw [val_main_v17_apply, e, gates_eq x0 x1 x2 x3 x4 x5 x6 x7 x8 x9 x10 x11]
  rfl

/-- Columns 192..255 of the gates at an entry. -/
theorem blk_o (r : Fin 131072) (j : Fin 64) :
    val_main_v18 (F := Ideal) x0 x1 x2 x4 x5 x6 x7 x8 x9 (ix2 r j) = blk ((𝐀).g r) 192 (by omega) j := by
  have e : idx_main_v18 (ix2 r j) = ix2 r ⟨192 + j.val, by have := j.isLt; omega⟩ :=
    funext fun a => Fin.ext (by match a with | ⟨0, _⟩ => rfl | ⟨1, _⟩ => rfl)
  rw [val_main_v18_apply, e, gates_eq x0 x1 x2 x3 x4 x5 x6 x7 x8 x9 x10 x11]
  rfl

/-- The input gate at an entry: the program's quotient 1 / (1 + exp (-x)) is the logistic function of x. -/
theorem sig_i (r : Fin 131072) (j : Fin 64) :
    val_main_v24 (F := Ideal) x0 x1 x2 x4 x5 x6 x7 x8 x9 (ix2 r j)
      = FloatOps.logistic (F := Ideal) (φ := .f32) (blk ((𝐀).g r) 0 (by omega) j) := by
  rw [val_main_v24_apply, val_main_v23_apply, val_main_cst_0_apply, val_main_v22_apply, val_main_v21_apply,
    val_main_cst_apply, val_main_v20_apply, val_main_v19_apply, blk_i x0 x1 x2 x3 x4 x5 x6 x7 x8 x9 x10 x11]
  exact (Cert.Lib.Sigmoid.logistic_eq_quotient _).symm

/-- The forget gate at an entry: the program's quotient 1 / (1 + exp (-x)) is the logistic function of x. -/
theorem sig_f (r : Fin 131072) (j : Fin 64) :
    val_main_v30 (F := Ideal) x0 x1 x2 x4 x5 x6 x7 x8 x9 (ix2 r j)
      = FloatOps.logistic (F := Ideal) (φ := .f32) (blk ((𝐀).g r) 64 (by omega) j) := by
  rw [val_main_v30_apply, val_main_v29_apply, val_main_cst_2_apply, val_main_v28_apply, val_main_v27_apply,
    val_main_cst_1_apply, val_main_v26_apply, val_main_v25_apply, blk_f x0 x1 x2 x3 x4 x5 x6 x7 x8 x9 x10 x11]
  exact (Cert.Lib.Sigmoid.logistic_eq_quotient _).symm

/-- The output gate at an entry: the program's quotient 1 / (1 + exp (-x)) is the logistic function of x. -/
theorem sig_o (r : Fin 131072) (j : Fin 64) :
    val_main_v37 (F := Ideal) x0 x1 x2 x4 x5 x6 x7 x8 x9 (ix2 r j)
      = FloatOps.logistic (F := Ideal) (φ := .f32) (blk ((𝐀).g r) 192 (by omega) j) := by
  rw [val_main_v37_apply, val_main_v36_apply, val_main_cst_4_apply, val_main_v35_apply, val_main_v34_apply,
    val_main_cst_3_apply, val_main_v33_apply, val_main_v32_apply, blk_o x0 x1 x2 x3 x4 x5 x6 x7 x8 x9 x10 x11]
  exact (Cert.Lib.Sigmoid.logistic_eq_quotient _).symm

/-- The new cell state at an entry. -/
theorem c_eq (r : Fin 131072) (j : Fin 64) :
    val_main_v40 (F := Ideal) x0 x1 x2 x3 x4 x5 x6 x7 x8 x9 (ix2 r j) = cellC ((𝐀).g r) (row x3 r) j := by
  rw [val_main_v40_apply, val_main_v38_apply, val_main_v39_apply, sig_f x0 x1 x2 x3 x4 x5 x6 x7 x8 x9 x10 x11, sig_i x0 x1 x2 x3 x4 x5 x6 x7 x8 x9 x10 x11, val_main_v31_apply,
    blk_g x0 x1 x2 x3 x4 x5 x6 x7 x8 x9 x10 x11]
  rfl

/-- The new hidden state at an entry. -/
theorem h_eq (r : Fin 131072) (j : Fin 64) :
    val_main_v42 (F := Ideal) x0 x1 x2 x3 x4 x5 x6 x7 x8 x9 (ix2 r j) = cellH ((𝐀).g r) (row x3 r) j := by
  rw [val_main_v42_apply, sig_o x0 x1 x2 x3 x4 x5 x6 x7 x8 x9 x10 x11, val_main_v41_apply, c_eq x0 x1 x2 x3 x4 x5 x6 x7 x8 x9 x10 x11]
  rfl

theorem lidx43 (r : Fin 131072) (k : Fin 64) : lidx_main_v43 (ix2 r (0 : Fin 1)) k = ix2 r k :=
  funext fun a => Fin.ext (by match a with | ⟨0, _⟩ => rfl | ⟨1, _⟩ => rfl)

theorem ridx43 (r : Fin 131072) (k : Fin 64) : ridx_main_v43 (ix2 r (0 : Fin 1)) k = ix2 k (0 : Fin 1) :=
  funext fun a => Fin.ext (by match a with | ⟨0, _⟩ => rfl | ⟨1, _⟩ => rfl)

theorem bidx44 (r : Fin 131072) : idx_main_v44 (idx_main_v45 (ix2 r (0 : Fin 1))) = ix1 (0 : Fin 1) :=
  funext fun a => Fin.ext (by match a with | ⟨0, _⟩ => rfl)

/-- The output head at a row: tanh of the new hidden row against the output weight's one column, plus the bias. -/
theorem head_eq (r : Fin 131072) :
    val_main_v47 (F := Ideal) x0 x1 x2 x3 x4 x5 x6 x7 x8 x9 x10 x11 (ix2 r (0 : Fin 1))
      = head (fun k => cellH ((𝐀).g r) (row x3 r) k) (fun k => x10 (ix2 k (0 : Fin 1))) (x11 (ix1 (0 : Fin 1))) := by
  have hs : ∑ k : Fin 64, val_main_v42 (F := Ideal) x0 x1 x2 x3 x4 x5 x6 x7 x8 x9 (lidx_main_v43 (ix2 r (0 : Fin 1)) k)
        * x10 (ridx_main_v43 (ix2 r (0 : Fin 1)) k)
      = ∑ k : Fin 64, cellH ((𝐀).g r) (row x3 r) k * x10 (ix2 k (0 : Fin 1)) :=
    Finset.sum_congr rfl fun k _ => by rw [lidx43, ridx43, h_eq x0 x1 x2 x3 x4 x5 x6 x7 x8 x9 x10 x11]
  rw [val_main_v47_apply, val_main_v46_apply, val_main_v43_apply, hs, val_main_v45_apply, val_main_v44_apply, bidx44]
  rfl

/-- The reference program's new cell state is the specification's. -/
theorem newC_eq :
    val_main_v40 (F := Ideal) x0 x1 x2 x3 x4 x5 x6 x7 x8 x9 = (⟨x0, x1, x2, x3, x4, x5, x6, x7, x8, x9, x10, x11⟩ : Cert.Lstm.Args).newC := by
  funext i
  obtain ⟨r, j, rfl⟩ : ∃ r j, i = ix2 r j := ⟨i 0, i 1, eq_ix2 i⟩
  exact c_eq x0 x1 x2 x3 x4 x5 x6 x7 x8 x9 x10 x11 r j

/-- The reference program's new hidden state is the specification's. -/
theorem newH_eq :
    val_main_v42 (F := Ideal) x0 x1 x2 x3 x4 x5 x6 x7 x8 x9 = (⟨x0, x1, x2, x3, x4, x5, x6, x7, x8, x9, x10, x11⟩ : Cert.Lstm.Args).newH := by
  funext i
  obtain ⟨r, j, rfl⟩ : ∃ r j, i = ix2 r j := ⟨i 0, i 1, eq_ix2 i⟩
  exact h_eq x0 x1 x2 x3 x4 x5 x6 x7 x8 x9 x10 x11 r j

/-- The reference program's output column is the specification's. -/
theorem out_eq :
    val_main_v47 (F := Ideal) x0 x1 x2 x3 x4 x5 x6 x7 x8 x9 x10 x11 = (⟨x0, x1, x2, x3, x4, x5, x6, x7, x8, x9, x10, x11⟩ : Cert.Lstm.Args).out := by
  funext i
  have h1 : ∀ c : Fin 1, c = 0 := fun c => Subsingleton.elim c 0
  obtain ⟨r, rfl⟩ : ∃ r, i = ix2 r (0 : Fin 1) := ⟨i 0, (eq_ix2 i).trans (congrArg (ix2 (i 0)) (h1 (i 1)))⟩
  exact head_eq x0 x1 x2 x3 x4 x5 x6 x7 x8 x9 x10 x11 r

end Cert.Lstm.Ref

end
-- ==== Proof.LibRowOps.lean ====
/-
  Two readings, at an entry, of operations on the rows of a matrix, for any sizes.

  A sum along the lanes of an `n × k` array gives one number per row: at row `r` it is the sum of that row's `k`
  entries.  An `a × 1` column spread over `b` lanes repeats each row's one entry along the row: at `(p, c)` it reads
  the column's entry of row `p`, whatever the lane `c` (also when `a = 1`).
-/
import Idealize.ShloMosaic.Lib.Pipeline.Value
import Idealize.ShloMosaic.Lib.ValueIdx
import Idealize.ShloMosaic.PureOps.Ideal.Laws

noncomputable section

open scoped BigOperators

namespace Cert.Lib.RowOps

open Idealize.ShloMosaic Idealize.ShloMosaic.ValueIdx

/-- A sum along the lanes of an `n × k` array from the zero word reads, at row `r`, the sum of that row's entries. -/
theorem laneSum_apply {n k : ℕ} (src : FVec Ideal ⟨2, ![n, k]⟩ .f32) (h : (⟨2, ![n, k]⟩ : Shape).Reduces [1] ⟨1, ![n]⟩)
    (hφ : FKind.Formats .f32) (hacc : (0x00000000#32 : BitVec 32) = 0x00000000#32) (r : Fin n) :
    multiReduction .add [1] ⟨1, ![n]⟩ src 0x00000000#32 h hφ hacc (ix1 r) = ∑ c : Fin k, src (ix2 r c) := by
  refine (Ideal.multiReduction_add_single src 0x00000000#32 h hφ hacc (ix1 r)).trans ?_
  exact Finset.sum_congr rfl fun c _ => congrArg src (funext fun ax => Fin.ext (by
    match ax with
    | ⟨0, _⟩ => rfl
    | ⟨1, _⟩ => rfl))

/-- An `a × 1` column spread over `b` lanes reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.RowOps

end
-- ==== Proof.LibKeepdims.lean ====
/-
  Sums that keep a unit axis, read at an entry, for any length.

  A sum along the lanes of an `n × k` block gives a length-`n` vector; kept as an `n × 1` column it is summed again, down
  the column, into a one-entry vector, which is kept as a `1 × 1` cell. Each re-shaping moves no entry: position `r` of
  the vector is entry `(r, 0)` of the column, and the one entry of the one-entry vector is the one entry of the cell. The
  column sum at its one result entry is the sum of the column's `n` entries.
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- A length-`a` vector kept as an `a × 1` column reads, at `(r, u)`, the vector at `r`. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) := by
  refine shapeCast_apply x h (ix2 r u) (ix1 r) ?_
  rw [Shape.rowMajor_val_one, Shape.rowMajor_val_two]
  show r.val = r.val * 1 + u.val
  have := u.isLt
  omega

/-- A one-entry vector kept as a `1 × 1` cell reads, at the cell's entry, the vector's entry. -/
theorem shapeCast_1_11_apply (x : (⟨1, ![1]⟩ : Shape).Idx → α)
    (h : (⟨1, ![1]⟩ : Shape).ShapeCasts ⟨2, ![1, 1]⟩) (j : (⟨2, ![1, 1]⟩ : Shape).Idx) :
    shapeCast ⟨2, ![1, 1]⟩ x h j = x (ix1 (0 : Fin 1)) := by
  refine shapeCast_apply x h j (ix1 (0 : Fin 1)) ?_
  rw [Shape.rowMajor_val_one, Shape.rowMajor_val_two]
  show (0 : ℕ) = (j 0).val * 1 + (j 1).val
  have h0 : (j 0).val < 1 := (j 0).isLt
  have h1 : (j 1).val < 1 := (j 1).isLt
  omega

/-- A `1 × 1` cell flattened to a scalar reads the cell's entry. -/
theorem shapeCast_11_scalar_apply (x : (⟨2, ![1, 1]⟩ : Shape).Idx → α)
    (h : (⟨2, ![1, 1]⟩ : Shape).ShapeCasts ⟨0, ![]⟩) (j : (⟨0, ![]⟩ : Shape).Idx) :
    shapeCast ⟨0, ![]⟩ x h j = x (ix2 (0 : Fin 1) (0 : Fin 1)) := by
  refine shapeCast_apply x h j (ix2 (0 : Fin 1) (0 : Fin 1)) ?_
  rw [Shape.rowMajor_val_two]
  show (0 : ℕ) * 1 + 0 = _
  have := ((⟨0, ![]⟩ : Shape).rowMajor j).isLt
  have hn : (⟨0, ![]⟩ : Shape).numel = 1 := rfl
  omega

/-- The index of an `n × 1` column over the one result entry with the row `r` put back. -/
theorem lift_col {n : ℕ} (h : (⟨2, ![n, 1]⟩ : Shape).Reduces [0] ⟨1, ![1]⟩) (j : (⟨1, ![1]⟩ : Shape).Idx) (r : Fin n) :
    h.lift j r = ix2 r (0 : Fin 1) := by
  funext ax; apply Fin.ext
  match ax with
  | ⟨0, _⟩ => rfl
  | ⟨1, _⟩ =>
    show (j 0).val = 0
    have : (j 0).val < 1 := (j 0).isLt
    omega

/-- An f32 sum down an `n × 1` column from the zero word reads, at its one entry, the sum of the column's entries. -/
theorem colSum_f32_apply {n : ℕ} (src : FVec Ideal ⟨2, ![n, 1]⟩ .f32)
    (h : (⟨2, ![n, 1]⟩ : Shape).Reduces [0] ⟨1, ![1]⟩) (hφ : FKind.Formats .f32)
    (hacc : (0x00000000#32 : BitVec 32) = 0x00000000#32) (j : (⟨1, ![1]⟩ : Shape).Idx) :
    multiReduction .add [0] ⟨1, ![1]⟩ src 0x00000000#32 h hφ hacc j = ∑ r : Fin n, src (ix2 r (0 : Fin 1)) := by
  refine (Ideal.multiReduction_add_single src 0x00000000#32 h hφ hacc j).trans ?_
  exact Finset.sum_congr rfl fun r _ => congrArg src (lift_col h j r)

end Cert.Lib.Keepdims

end
-- ==== Proof.KernelCell.lean ====
/-
  The kernel body's arithmetic at one row of a block, against the row-by-row specification.

  The body works on blocks of 4096 rows. Its values depend on the blocks only through one row at a time: at row `p`
  of the block, which is row `r` of the arrays, the projected input is the specification's, the fused gate product
  over the joined 128 columns [x | h] against the stacked weight [Wi ; Wh] is the specification's two 64-term sums
  (a sum over 128 indices is the sum over the first 64 plus the sum over the last 64), and the cell update, the
  hidden state and the output head follow entry by entry. Changes of float format are the identity on extended
  reals. Each lemma takes what the loaded blocks hold, row by row, as hypotheses.
-/
import proofs.«132099_j39737037422777_2_alg».proof.Proof.Gen.KernelIdeal.Skeleton
import proofs.«132099_j39737037422777_2_alg».proof.Proof.CellSpec
import proofs.«132099_j39737037422777_2_alg».proof.Proof.LibTwoBlocks
import proofs.«132099_j39737037422777_2_alg».proof.Proof.LibConcatCols
import proofs.«132099_j39737037422777_2_alg».proof.Proof.LibRowOps
import proofs.«132099_j39737037422777_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Lstm.Ker

open Idealize.ShloMosaic Idealize.ShloMosaic.ValueIdx Cert.KernelIdeal Cert.KernelIdeal.Gen Cert.Lstm
open Cert.Lib.TwoBlocks Cert.Lib.ConcatCols

variable (A : Args) (r : Fin 131072) (p : Fin 4096)
  (v0 : Vec Ideal S4096x192 .f32) (v2 : Vec Ideal S4096x32 .f32) (v4 : Vec Ideal S192x64 .f32)
  (v6 : Vec Ideal S32x64 .f32) (v8 : Vec Ideal S1x64 .f32) (v18 : Vec Ideal S4096x64 .f32)
  (v21 : Vec Ideal S128x256 .f32) (v24 : Vec Ideal S1x256 .f32)

/-- The rectified projection at row `p` of the block, entry `k`: the two block products, the bias row spread over
    the rows, the maximum with the zero word. -/
theorem x_eq (h0 : ∀ k, v0 (ix2 p k) = A.state (ix2 r k)) (h1 : ∀ k, v2 (ix2 p k) = A.action (ix2 r k))
    (h4 : ∀ k j, v4 (ix2 k j) = A.Ws k j) (h6 : ∀ k j, v6 (ix2 k j) = A.Wa k j)
    (h8 : ∀ j, v8 (ix2 (0 : Fin 1) j) = A.bin (ix1 j)) (k : Fin 64) :
    maximumf
        (addf
          (addf
            (matmul dot_S4096x192_S192x64_S4096x64_1_0_0_1_n_n none (truncf FTy.bf16 v0 bitsLt_bf16_f32)
              (truncf FTy.bf16 v4 bitsLt_bf16_f32) (constant S4096x64 FTy.f32 0x00000000#32))
            (matmul dot_S4096x32_S32x64_S4096x64_1_0_0_1_n_n none (truncf FTy.bf16 v2 bitsLt_bf16_f32)
              (truncf FTy.bf16 v6 bitsLt_bf16_f32) (constant S4096x64 FTy.f32 0x00000000#32)))
          (broadcastTo S4096x64 (shapeCast S1x64 v8 shapeCasts_S1x64_S1x64) broadcasts_S1x64_S4096x64))
        (broadcast S4096x64 (FloatOps.ofBits (F := Ideal) FTy.f32 0x00000000#32)) (ix2 p k)
      = A.x r k := by
  refine (congrArg₂ max (congrArg₂ (· + ·) (congrArg₂ (· + ·)
    (plain_matmul_zero_apply _ rfl none _ _ p k) (plain_matmul_zero_apply _ rfl none _ _ p k))
    (broadcastTo_1b_ab_apply _ _ p k)) rfl).trans ?_
  rw [shapeCast_self]
  unfold Args.x proj row
  refine congrArg₂ max (congrArg₂ (· + ·) (congrArg₂ (· + ·)
    (Finset.sum_congr rfl fun c _ => ?_) (Finset.sum_congr rfl fun c _ => ?_)) (h8 k)) rfl
  · exact congrArg₂ (· * ·) (h0 c) (h4 c k)
  · exact congrArg₂ (· * ·) (h1 c) (h6 c k)

/-- The gates' 256 pre-activations at row `p` of the block: the product of the joined row [x | h] with the stacked
    weight, a sum over 128 indices, is the sum over the first 64 (x against the upper weight) plus the sum over the
    last 64 (h against the lower weight); the bias row holds the two biases' sum. -/
theorem gates_eq (h0 : ∀ k, v0 (ix2 p k) = A.state (ix2 r k)) (h1 : ∀ k, v2 (ix2 p k) = A.action (ix2 r k))
    (h4 : ∀ k j, v4 (ix2 k j) = A.Ws k j) (h6 : ∀ k j, v6 (ix2 k j) = A.Wa k j)
    (h8 : ∀ j, v8 (ix2 (0 : Fin 1) j) = A.bin (ix1 j))
    (h18 : ∀ k, v18 (ix2 p k) = A.hidden (ix2 r k))
    (h21a : ∀ (k : Fin 64) (q : Fin 256), v21 (ix2 ⟨k.val, by have := k.isLt; omega⟩ q) = A.Wi (ix2 k q))
    (h21b : ∀ (k : Fin 64) (q : Fin 256), v21 (ix2 ⟨64 + k.val, by have := k.isLt; omega⟩ q) = A.Wh (ix2 k q))
    (h24 : ∀ q, v24 (ix2 (0 : Fin 1) q) = A.bi (ix1 q) + A.bh (ix1 q)) (q : Fin 256) :
    k0_pay4 v0 v2 v4 v6 v8 v18 v21 v24 (ix2 p q) = A.g r q := by
  unfold k0_pay4
  refine (congrArg₂ (· + ·)
    ((plain_matmul_zero_apply _ rfl none _ _ p q).trans (sum_two_blocks (a := 64) (b := 64) rfl _))
    (broadcastTo_1b_ab_apply _ _ p q)).trans ?_
  unfold Args.g gate row
  refine congrArg₂ (· + ·) (congrArg₂ (· + ·)
    (Finset.sum_congr rfl fun k _ => ?_) (Finset.sum_congr rfl fun k _ => ?_))
    ((congrFun (shapeCast_self v24 _) _).trans (h24 q))
  · refine congrArg₂ (· * ·) ?_ ((congrFun (shapeCast_self v21 _) _).trans (h21a k q))
    refine (concat_cols_left (a := 4096) (b₁ := 64) (b₂ := 64) (n := 128) _ _ _ p
      (⟨k.val, by have := k.isLt; omega⟩ : Fin 128) k rfl).trans ?_
    exact x_eq A r p v0 v2 v4 v6 v8 h0 h1 h4 h6 h8 k
  · refine congrArg₂ (· * ·) ?_ ((congrFun (shapeCast_self v21 _) _).trans (h21b k q))
    refine (concat_cols_right (a := 4096) (b₁ := 64) (b₂ := 64) (n := 128) _ _ _ p
      (⟨64 + k.val, by have := k.isLt; omega⟩ : Fin 128) k rfl).trans ?_
    exact h18 k

/-- What the body's loads hold at row `p` of a block that is row `r` of the arrays: the row's observation, action and
    hidden state, and (whatever the row) the two parts of the input weight, the input bias as a 1 × 64 row, the
    stacked gate weight and the summed gate bias as a 1 × 256 row. -/
structure Holds : Prop where
  state : ∀ k, v0 (ix2 p k) = A.state (ix2 r k)
  action : ∀ k, v2 (ix2 p k) = A.action (ix2 r k)
  ws : ∀ k j, v4 (ix2 k j) = A.Ws k j
  wa : ∀ k j, v6 (ix2 k j) = A.Wa k j
  bin : ∀ j, v8 (ix2 (0 : Fin 1) j) = A.bin (ix1 j)
  hidden : ∀ k, v18 (ix2 p k) = A.hidden (ix2 r k)
  wi : ∀ (k : Fin 64) (q : Fin 256), v21 (ix2 ⟨k.val, by have := k.isLt; omega⟩ q) = A.Wi (ix2 k q)
  wh : ∀ (k : Fin 64) (q : Fin 256), v21 (ix2 ⟨64 + k.val, by have := k.isLt; omega⟩ q) = A.Wh (ix2 k q)
  bias : ∀ q, v24 (ix2 (0 : Fin 1) q) = A.bi (ix1 q) + A.bh (ix1 q)

variable {A r p v0 v2 v4 v6 v8 v18 v21 v24}

/-- The gates at row `p`, from the bundled facts. -/
theorem Holds.gates (H : Holds A r p v0 v2 v4 v6 v8 v18 v21 v24) (q : Fin 256) :
    k0_pay4 v0 v2 v4 v6 v8 v18 v21 v24 (ix2 p q) = A.g r q :=
  gates_eq A r p v0 v2 v4 v6 v8 v18 v21 v24 H.state H.action H.ws H.wa H.bin H.hidden H.wi H.wh H.bias q

/-- The gate block that starts at column `o`, cut out of the 256 pre-activations, at `(p, j)`. -/
theorem Holds.gateBlock (H : Holds A r p v0 v2 v4 v6 v8 v18 v21 v24) (o : ℕ) (ho : o + 64 ≤ 256)
    (hs : S4096x256.Slices ![0, o] S4096x64) (j : Fin 64) :
    extractStridedSlice S4096x64 ![0, o] (k0_pay4 v0 v2 v4 v6 v8 v18 v21 v24) hs (ix2 p j) = blk (A.g r) o ho j :=
  (slice2_axis1_apply o _ hs p j ⟨o + j.val, by have := j.isLt; omega⟩ rfl).trans (H.gates _)

/-- The new cell state at `(p, j)`: forget gate times the old cell state plus input gate times candidate. -/
theorem Holds.newC (H : Holds A r p v0 v2 v4 v6 v8 v18 v21 v24) (v37 : Vec Ideal S4096x64 .f32)
    (h37 : ∀ k, v37 (ix2 p k) = A.cell (ix2 r k)) (j : Fin 64) :
    k0_pay1 (k0_pay5 v0 v2 v4 v6 v8 v18 v21 v24) (k0_pay6 v0 v2 v4 v6 v8 v18 v21 v24)
      (k0_pay7 v0 v2 v4 v6 v8 v18 v21 v24) v37 (ix2 p j) = A.newC (ix2 r j) := by
  unfold k0_pay1 k0_pay5 k0_pay6 k0_pay7
  show FloatOps.logistic (F := Ideal) (φ := .f32) _ * v37 (ix2 p j)
      + FloatOps.logistic (F := Ideal) (φ := .f32) _ * FloatOps.tanh (F := Ideal) (φ := .f32) _ = cellC (A.g r) (row A.cell r) j
  unfold cellC row
  exact congrArg₂ (· + ·)
    (congrArg₂ (· * ·) (congrArg (FloatOps.logistic (F := Ideal) (φ := .f32)) (H.gateBlock 64 (by omega) _ j)) (h37 j))
    (congrArg₂ (· * ·) (congrArg (FloatOps.logistic (F := Ideal) (φ := .f32)) (H.gateBlock 0 (by omega) _ j))
      (congrArg (FloatOps.tanh (F := Ideal) (φ := .f32)) (H.gateBlock 128 (by omega) _ j)))

/-- The new hidden state at `(p, j)`: output gate times tanh of the new cell state. -/
theorem Holds.newH (H : Holds A r p v0 v2 v4 v6 v8 v18 v21 v24) (v37 : Vec Ideal S4096x64 .f32)
    (h37 : ∀ k, v37 (ix2 p k) = A.cell (ix2 r k)) (j : Fin 64) :
    k0_pay2 (k0_pay5 v0 v2 v4 v6 v8 v18 v21 v24) (k0_pay6 v0 v2 v4 v6 v8 v18 v21 v24)
      (k0_pay7 v0 v2 v4 v6 v8 v18 v21 v24) (k0_pay8 v0 v2 v4 v6 v8 v18 v21 v24) v37 (ix2 p j) = A.newH (ix2 r j) := by
  unfold k0_pay2
  show k0_pay8 v0 v2 v4 v6 v8 v18 v21 v24 (ix2 p j) * FloatOps.tanh (F := Ideal) (φ := .f32) (k0_pay1 _ _ _ v37 (ix2 p j))
      = cellH (A.g r) (row A.cell r) j
  unfold cellH k0_pay8
  exact congrArg₂ (· * ·) (congrArg (FloatOps.logistic (F := Ideal) (φ := .f32)) (H.gateBlock 192 (by omega) _ j))
    (congrArg (FloatOps.tanh (F := Ideal) (φ := .f32)) (H.newC v37 h37 j))

/-- The output head at row `p`: the new hidden state times the weight row spread over the rows, summed along the
    lanes from zero, kept as a column, plus the 1 × 1 bias spread down the column, under tanh. -/
theorem Holds.out (H : Holds A r p v0 v2 v4 v6 v8 v18 v21 v24) (v37 : Vec Ideal S4096x64 .f32)
    (h37 : ∀ k, v37 (ix2 p k) = A.cell (ix2 r k)) (v43 : Vec Ideal S1x64 .f32) (v45 : Vec Ideal S1x1 .f32)
    (h43 : ∀ k, v43 (ix2 (0 : Fin 1) k) = A.Wout (ix2 k (0 : Fin 1)))
    (h45 : v45 (ix2 (0 : Fin 1) (0 : Fin 1)) = A.bout (ix1 (0 : Fin 1))) (u : Fin 1) :
    k0_pay3 (k0_pay5 v0 v2 v4 v6 v8 v18 v21 v24) (k0_pay6 v0 v2 v4 v6 v8 v18 v21 v24)
      (k0_pay7 v0 v2 v4 v6 v8 v18 v21 v24) (k0_pay8 v0 v2 v4 v6 v8 v18 v21 v24) v37 v43 v45 (ix2 p u) = A.out (ix2 r u) := by
  unfold k0_pay3
  show FloatOps.tanh (F := Ideal) (φ := .f32)
      (shapeCast S4096x1 (multiReduction .add [1] S4096 _ 0x00000000#32 _ _ _) _ (ix2 p u) + broadcastTo S4096x1 _ _ (ix2 p u))
    = head (fun k => cellH (A.g r) (row A.cell r) k) (fun k => A.Wout (ix2 k (0 : Fin 1))) (A.bout (ix1 (0 : Fin 1)))
  unfold head
  refine congrArg (FloatOps.tanh (F := Ideal) (φ := .f32)) (congrArg₂ (· + ·) ?_ ?_)
  · refine ((Cert.Lib.Keepdims.shapeCast_a_a1_apply _ _ p u).trans (Cert.Lib.RowOps.laneSum_apply _ _ _ _ p)).trans ?_
    refine Finset.sum_congr rfl fun k _ => ?_
    refine congrArg₂ (· * ·) (H.newH v37 h37 k) ?_
    exact (broadcastTo_1b_ab_apply _ _ p k).trans ((congrFun (shapeCast_self v43 _) _).trans (h43 k))
  · refine (broadcastTo_1b_ab_apply _ _ p u).trans ((congrFun (shapeCast_self v45 _) _).trans ?_)
    have hu : u = 0 := Subsingleton.elim _ _
    subst hu
    exact h45

end Cert.Lstm.Ker

end
-- ==== Proof.LibColumnForms.lean ====
/-
  Three readings, at an entry, of operations that move between a column, a row and a vector, for any sizes.

  An `a × 1` column re-laid as a `1 × a` row, or flattened to a length-`a` vector, moves no entry: position `i` of the
  row or of the vector is entry `(i, 0)` of the column. A host sum along the lanes of an `n × k` array, started from
  an initial scalar, is at row `r` that scalar plus the sum of the row's `k` entries.
-/
import Idealize.ShloMosaic.Lib.Pipeline.Value
import Idealize.ShloMosaic.Lib.ValueIdx
import Idealize.ShloMosaic.PureOps.Ideal.Laws

noncomputable section

open scoped BigOperators

namespace Cert.Lib.ColumnForms

open Idealize.ShloMosaic Idealize.ShloMosaic.ValueIdx

variable {α : Type}

/-- An `a × 1` column re-laid as a `1 × a` row reads, at `(u, i)`, the column at `(i, 0)`. -/
theorem shapeCast_a1_1a_apply {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) := by
  refine shapeCast_apply x h (ix2 u i) (ix2 i (0 : Fin 1)) ?_
  rw [Shape.rowMajor_val_two, Shape.rowMajor_val_two]
  show i.val * 1 + 0 = u.val * a + i.val
  have hu : u.val = 0 := by omega
  rw [hu, Nat.zero_mul, Nat.zero_add, Nat.mul_one, Nat.add_zero]

/-- An `a × 1` column flattened to a length-`a` vector reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) := by
  refine shapeCast_apply x h (ix1 i) (ix2 i (0 : Fin 1)) ?_
  rw [Shape.rowMajor_val_two, Shape.rowMajor_val_one]
  show i.val * 1 + 0 = i.val
  rw [Nat.mul_one, Nat.add_zero]

/-- A host sum along the lanes of an `n × k` array from an initial scalar reads, at row `r`, the scalar plus the sum of
    that row's entries. The caller supplies the index-lifting form of the shape fact (decided at its literal shapes). -/
theorem hostRowSum_apply {n k : ℕ} (x : FVec Ideal ⟨2, ![n, k]⟩ .f32) (v : FVec Ideal ⟨0, ![]⟩ .f32)
    (h' : (⟨2, ![n, k]⟩ : Shape).ReducesTo [1] ⟨1, ![n]⟩) (h0 : 0 < (⟨0, ![]⟩ : Shape).numel)
    (h : (⟨2, ![n, k]⟩ : Shape).Reduces [1] ⟨1, ![n]⟩) (r : Fin n) :
    Host.reduceAdd x v h' h0 (ix1 r) = v (Shape.Idx.first h0) + ∑ c : Fin k, x (ix2 r c) := by
  simp only [Host.reduceAdd, Ideal.hostReduceAdd_def]
  rw [Ideal.hostReduceAdd_single h' h]
  refine congrArg (_ + ·) (Finset.sum_congr rfl fun c _ => ?_)
  exact congrArg x (funext fun a => Fin.ext (by match a with | ⟨0, _⟩ => rfl | ⟨1, _⟩ => rfl))

end Cert.Lib.ColumnForms

end
-- ==== Proof.KernelBlocks.lean ====
/-
  From the blocks the body leaves to the arrays after the run.

  The grid has 32 points; point `t` stages rows `4096 t … 4096 t + 4095` of the four row-indexed inputs and writes the
  same rows of the three outputs, while the weights and biases are staged whole at every point. Three of the staged
  arrays are written by the host before the launch: the input bias as a 1 × 64 row, the two gate weights stacked into
  128 × 256, the two gate biases added and laid as a 1 × 256 row, the head's weight column as a 1 × 64 row and its
  bias as 1 × 1. Read at an entry, each staged block holds what the row-by-row specification asks, so what point
  `t` writes back is block `t` of the specification's arrays; the 32 blocks cover the arrays, so after the run the
  three output arrays are the specification's.
-/
import proofs.«132099_j39737037422777_2_alg».proof.Proof.Gen.KernelIdeal.Frame
import proofs.«132099_j39737037422777_2_alg».proof.Proof.CellSpec
import proofs.«132099_j39737037422777_2_alg».proof.Proof.KernelCell
import proofs.«132099_j39737037422777_2_alg».proof.Proof.LibTwoBlocks
import proofs.«132099_j39737037422777_2_alg».proof.Proof.LibColumnForms
import proofs.«132099_j39737037422777_2_alg».proof.Proof.LibKeepdims
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.Lstm.Blk

open Idealize.ShloMosaic Idealize.ShloMosaic.ValueIdx Idealize.ShloMosaic.TcCoe Idealize.SL.Sem
open Idealize.ShloMosaic.Pipeline Cert.KernelIdeal Cert.KernelIdeal.Gen Cert.Lstm

variable (m : (ℓ : Loc nD τ sig) → Buf (Elt Ideal) ℓ)

/-- The twelve argument arrays as launched on core `c`. -/
def argsOf (c : Dev nD) : Args where
  state := m ((c : Thread nD τ).loc main_arg0)
  action := m ((c : Thread nD τ).loc main_arg1)
  hidden := m ((c : Thread nD τ).loc main_arg2)
  cell := m ((c : Thread nD τ).loc main_arg3)
  Win := m ((c : Thread nD τ).loc main_arg4)
  bin := m ((c : Thread nD τ).loc main_arg5)
  Wi := m ((c : Thread nD τ).loc main_arg6)
  bi := m ((c : Thread nD τ).loc main_arg7)
  Wh := m ((c : Thread nD τ).loc main_arg8)
  bh := m ((c : Thread nD τ).loc main_arg9)
  Wout := m ((c : Thread nD τ).loc main_arg10)
  bout := m ((c : Thread nD τ).loc main_arg11)

theorem hz : (![0, 0] : Fin 2 → Nat) = fun _ => 0 := funext fun a => by fin_cases a <;> rfl

/-! ## The index maps, decided once over the 32 points -/

/-- The row-indexed windows (the four inputs 0–3, the three outputs 10–12) sit at block row `t`, block column 0; the
    weights and biases (windows 4–9) at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

theorem point_lt (t : Fin cfg0.N) : t.val < 32 := t.isLt

/-- Row `p` of point `t`'s block is row `4096 t + p` of the arrays. -/
def rowAt (t : Fin cfg0.N) (p : Fin 4096) : Fin 131072 :=
  ⟨t.val * 4096 + p.val, by have := point_lt t; have := p.isLt; omega⟩

/-! ## What the host wrote before the launch -/

theorem V_main_v0 (c : Dev nD) : (V m c main_v0 : S1x64.Idx → EReal)
    = shapeCast S1x64 (m ((c : Thread nD τ).loc main_arg5)) shapeCasts_S64_S1x64 := by
  show StableHlo.after hostOps0 (fun b => m (c, b)) (Proc.devRef .tc main_v0) = _
  after_results
  all_goals rfl

theorem V_main_v1 (c : Dev nD) : (V m c main_v1 : S128x256.Idx → EReal)
    = concatenate S128x256 0 [⟨S64x256, m ((c : Thread nD τ).loc main_arg6)⟩, ⟨S64x256, m ((c : Thread nD τ).loc main_arg8)⟩]
        concatenates_S64x256_S64x256_S128x256_d0 := by
  show StableHlo.after hostOps0 (fun b => m (c, b)) (Proc.devRef .tc main_v1) = _
  after_results
  all_goals rfl

theorem V_main_v3 (c : Dev nD) : (V m c main_v3 : S1x256.Idx → EReal)
    = shapeCast S1x256 (addf (F := Ideal) (s := S256) (φ := .f32) (m ((c : Thread nD τ).loc main_arg7)) (m ((c : Thread nD τ).loc main_arg9)))
        shapeCasts_S256_S1x256 := by
  show StableHlo.after hostOps0 (fun b => m (c, b)) (Proc.devRef .tc main_v3) = _
  after_results
  all_goals rfl

theorem V_main_v4 (c : Dev nD) : (V m c main_v4 : S1x64.Idx → EReal)
    = shapeCast S1x64 (m ((c : Thread nD τ).loc main_arg10)) shapeCasts_S64x1_S1x64 := by
  show StableHlo.after hostOps0 (fun b => m (c, b)) (Proc.devRef .tc main_v4) = _
  after_results
  all_goals rfl

theorem V_main_v5 (c : Dev nD) : (V m c main_v5 : S1x1.Idx → EReal)
    = shapeCast S1x1 (m ((c : Thread nD τ).loc main_arg11)) shapeCasts_S1_S1x1 := by
  show StableHlo.after hostOps0 (fun b => m (c, b)) (Proc.devRef .tc main_v5) = _
  after_results
  all_goals rfl

/-! ## The staged blocks, read at an entry -/

/-- Window 0's block at point `t`, row `p`: row `t * 4096 + p` of the array. -/
theorem blk0_apply (c : Dev nD) (t : Fin cfg0.N) (p : Fin 4096) (k : Fin 192) :
    iblk m c 0 t (ix2 p k) = (argsOf m c).state (ix2 (rowAt t p) k) := by
  unfold iblk
  show V m c main_arg0 (((cfg0.win 0).blk t).view.emb (ix2 p k)) = _
  rw [V_main_arg0]
  obtain ⟨e0, e1⟩ := (idx_facts t).1
  refine congrArg (m ((c : Thread nD τ).loc main_arg0)) (funext fun a => Fin.ext ?_)
  match a with
  | ⟨0, _⟩ => show win0_0.index t (0 : Fin 2) * 4096 + 1 * p.val = t.val * 4096 + p.val; omega
  | ⟨1, _⟩ => show win0_0.index t (1 : Fin 2) * 192 + 1 * k.val = k.val; omega

/-- Window 1's block at point `t`, row `p`: row `t * 4096 + p` of the array. -/
theorem blk1_apply (c : Dev nD) (t : Fin cfg0.N) (p : Fin 4096) (k : Fin 32) :
    iblk m c 1 t (ix2 p k) = (argsOf m c).action (ix2 (rowAt t p) k) := by
  unfold iblk
  show V m c main_arg1 (((cfg0.win 1).blk t).view.emb (ix2 p k)) = _
  rw [V_main_arg1]
  obtain ⟨e0, e1⟩ := (idx_facts t).2.1
  refine congrArg (m ((c : Thread nD τ).loc main_arg1)) (funext fun a => Fin.ext ?_)
  match a with
  | ⟨0, _⟩ => show win0_1.index t (0 : Fin 2) * 4096 + 1 * p.val = t.val * 4096 + p.val; omega
  | ⟨1, _⟩ => show win0_1.index t (1 : Fin 2) * 32 + 1 * k.val = k.val; omega

/-- Window 2's block at point `t`, row `p`: row `t * 4096 + p` of the array. -/
theorem blk2_apply (c : Dev nD) (t : Fin cfg0.N) (p : Fin 4096) (k : Fin 64) :
    iblk m c 2 t (ix2 p k) = (argsOf m c).hidden (ix2 (rowAt t p) k) := by
  unfold iblk
  show V m c main_arg2 (((cfg0.win 2).blk t).view.emb (ix2 p k)) = _
  rw [V_main_arg2]
  obtain ⟨e0, e1⟩ := (idx_facts t).2.2.1
  refine congrArg (m ((c : Thread nD τ).loc main_arg2)) (funext fun a => Fin.ext ?_)
  match a with
  | ⟨0, _⟩ => show win0_2.index t (0 : Fin 2) * 4096 + 1 * p.val = t.val * 4096 + p.val; omega
  | ⟨1, _⟩ => show win0_2.index t (1 : Fin 2) * 64 + 1 * k.val = k.val; omega

/-- Window 3's block at point `t`, row `p`: row `t * 4096 + p` of the array. -/
theorem blk3_apply (c : Dev nD) (t : Fin cfg0.N) (p : Fin 4096) (k : Fin 64) :
    iblk m c 3 t (ix2 p k) = (argsOf m c).cell (ix2 (rowAt t p) k) := by
  unfold iblk
  show V m c main_arg3 (((cfg0.win 3).blk t).view.emb (ix2 p k)) = _
  rw [V_main_arg3]
  obtain ⟨e0, e1⟩ := (idx_facts t).2.2.2.1
  refine congrArg (m ((c : Thread nD τ).loc main_arg3)) (funext fun a => Fin.ext ?_)
  match a with
  | ⟨0, _⟩ => show win0_3.index t (0 : Fin 2) * 4096 + 1 * p.val = t.val * 4096 + p.val; omega
  | ⟨1, _⟩ => show win0_3.index t (1 : Fin 2) * 64 + 1 * k.val = k.val; omega

/-- The upper 192 rows of the input weight, loaded out of the whole staged weight. -/
theorem blk4_upper (c : Dev nD) (t : Fin cfg0.N) (k : Fin 192) (j : Fin 64) :
    View.ld (iblk m c 4 t) r0_2 (ix2 k j) = (argsOf m c).Ws k j := by
  show iblk m c 4 t (r0_2.emb (ix2 k j)) = _
  unfold iblk
  show V m c main_arg4 (((cfg0.win 4).blk t).view.emb (r0_2.emb (ix2 k j))) = _
  rw [V_main_arg4]
  obtain ⟨e0, e1⟩ := (idx_facts t).2.2.2.2.1
  refine congrArg (m ((c : Thread nD τ).loc main_arg4)) (funext fun a => Fin.ext ?_)
  match a with
  | ⟨0, _⟩ => show win0_4.index t (0 : Fin 2) * 224 + 1 * (0 + 1 * k.val) = k.val; omega
  | ⟨1, _⟩ => show win0_4.index t (1 : Fin 2) * 64 + 1 * (0 + 1 * j.val) = j.val; omega

/-- Its lower 32 rows. -/
theorem blk4_lower (c : Dev nD) (t : Fin cfg0.N) (k : Fin 32) (j : Fin 64) :
    View.ld (iblk m c 4 t) r0_3 (ix2 k j) = (argsOf m c).Wa k j := by
  show iblk m c 4 t (r0_3.emb (ix2 k j)) = _
  unfold iblk
  show V m c main_arg4 (((cfg0.win 4).blk t).view.emb (r0_3.emb (ix2 k j))) = _
  rw [V_main_arg4]
  obtain ⟨e0, e1⟩ := (idx_facts t).2.2.2.2.1
  refine congrArg (m ((c : Thread nD τ).loc main_arg4)) (funext fun a => Fin.ext ?_)
  match a with
  | ⟨0, _⟩ => show win0_4.index t (0 : Fin 2) * 224 + 1 * (192 + 1 * k.val) = 192 + k.val; omega
  | ⟨1, _⟩ => show win0_4.index t (1 : Fin 2) * 64 + 1 * (0 + 1 * j.val) = j.val; omega

/-- A whole-array window's block is the array: its embedding is the identity (windows 5 to 9). -/
theorem emb5 (t : Fin cfg0.N) (y : S1x64.Idx) : ((cfg0.win 5).blk t).view.emb y = y := by
  obtain ⟨e0, e1⟩ := (idx_facts t).2.2.2.2.2.1
  funext a; apply Fin.ext
  match a with
  | ⟨0, _⟩ => show win0_5.index t (0 : Fin 2) * 1 + 1 * (y 0).val = (y 0).val; omega
  | ⟨1, _⟩ => show win0_5.index t (1 : Fin 2) * 64 + 1 * (y 1).val = (y 1).val; omega
theorem emb6 (t : Fin cfg0.N) (y : S128x256.Idx) : ((cfg0.win 6).blk t).view.emb y = y := by
  obtain ⟨e0, e1⟩ := (idx_facts t).2.2.2.2.2.2.1
  funext a; apply Fin.ext
  match a with
  | ⟨0, _⟩ => show win0_6.index t (0 : Fin 2) * 128 + 1 * (y 0).val = (y 0).val; omega
  | ⟨1, _⟩ => show win0_6.index t (1 : Fin 2) * 256 + 1 * (y 1).val = (y 1).val; omega
theorem emb7 (t : Fin cfg0.N) (y : S1x256.Idx) : ((cfg0.win 7).blk t).view.emb y = y := by
  obtain ⟨e0, e1⟩ := (idx_facts t).2.2.2.2.2.2.2.1
  funext a; apply Fin.ext
  match a with
  | ⟨0, _⟩ => show win0_7.index t (0 : Fin 2) * 1 + 1 * (y 0).val = (y 0).val; omega
  | ⟨1, _⟩ => show win0_7.index t (1 : Fin 2) * 256 + 1 * (y 1).val = (y 1).val; omega
theorem emb8 (t : Fin cfg0.N) (y : S1x64.Idx) : ((cfg0.win 8).blk t).view.emb y = y := by
  obtain ⟨e0, e1⟩ := (idx_facts t).2.2.2.2.2.2.2.2.1
  funext a; apply Fin.ext
  match a with
  | ⟨0, _⟩ => show win0_8.index t (0 : Fin 2) * 1 + 1 * (y 0).val = (y 0).val; omega
  | ⟨1, _⟩ => show win0_8.index t (1 : Fin 2) * 64 + 1 * (y 1).val = (y 1).val; omega
theorem emb9 (t : Fin cfg0.N) (y : S1x1.Idx) : ((cfg0.win 9).blk t).view.emb y = y := by
  obtain ⟨e0, e1⟩ := (idx_facts t).2.2.2.2.2.2.2.2.2.1
  funext a; apply Fin.ext
  match a with
  | ⟨0, _⟩ => show win0_9.index t (0 : Fin 2) * 1 + 1 * (y 0).val = (y 0).val; omega
  | ⟨1, _⟩ => show win0_9.index t (1 : Fin 2) * 1 + 1 * (y 1).val = (y 1).val; omega

/-- The input bias, staged as a 1 × 64 row. -/
theorem blk5_apply (c : Dev nD) (t : Fin cfg0.N) (j : Fin 64) :
    iblk m c 5 t (ix2 (0 : Fin 1) j) = (argsOf m c).bin (ix1 j) := by
  unfold iblk
  show V m c main_v0 (((cfg0.win 5).blk t).view.emb (ix2 (0 : Fin 1) j)) = _
  rw [emb5, V_main_v0]
  exact shapeCast_a_1a_apply _ _ (0 : Fin 1) j

/-- The stacked gate weight: its upper 64 rows are the input part. -/
theorem blk6_upper (c : Dev nD) (t : Fin cfg0.N) (k : Fin 64) (q : Fin 256) :
    iblk m c 6 t (ix2 (⟨k.val, by have := k.isLt; omega⟩ : Fin 128) q) = (argsOf m c).Wi (ix2 k q) := by
  unfold iblk
  show V m c main_v1 (((cfg0.win 6).blk t).view.emb (ix2 (⟨k.val, by have := k.isLt; omega⟩ : Fin 128) q)) = _
  rw [emb6, V_main_v1]
  exact Cert.Lib.TwoBlocks.concat_rows_upper (a₁ := 64) (a₂ := 64) (n := 128) (b := 256) _ _ _ _ q k rfl

/-- Its lower 64 rows are the recurrent part. -/
theorem blk6_lower (c : Dev nD) (t : Fin cfg0.N) (k : Fin 64) (q : Fin 256) :
    iblk m c 6 t (ix2 (⟨64 + k.val, by have := k.isLt; omega⟩ : Fin 128) q) = (argsOf m c).Wh (ix2 k q) := by
  unfold iblk
  show V m c main_v1 (((cfg0.win 6).blk t).view.emb (ix2 (⟨64 + k.val, by have := k.isLt; omega⟩ : Fin 128) q)) = _
  rw [emb6, V_main_v1]
  exact Cert.Lib.TwoBlocks.concat_rows_lower (a₁ := 64) (a₂ := 64) (n := 128) (b := 256) _ _ _ _ q k rfl

/-- The two gate biases, added by the host and staged as a 1 × 256 row. -/
theorem blk7_apply (c : Dev nD) (t : Fin cfg0.N) (q : Fin 256) :
    iblk m c 7 t (ix2 (0 : Fin 1) q) = (argsOf m c).bi (ix1 q) + (argsOf m c).bh (ix1 q) := by
  unfold iblk
  show V m c main_v3 (((cfg0.win 7).blk t).view.emb (ix2 (0 : Fin 1) q)) = _
  rw [emb7, V_main_v3]
  exact shapeCast_a_1a_apply _ _ (0 : Fin 1) q

/-- The head's weight column, staged as a 1 × 64 row. -/
theorem blk8_apply (c : Dev nD) (t : Fin cfg0.N) (k : Fin 64) :
    iblk m c 8 t (ix2 (0 : Fin 1) k) = (argsOf m c).Wout (ix2 k (0 : Fin 1)) := by
  unfold iblk
  show V m c main_v4 (((cfg0.win 8).blk t).view.emb (ix2 (0 : Fin 1) k)) = _
  rw [emb8, V_main_v4]
  exact Cert.Lib.ColumnForms.shapeCast_a1_1a_apply _ _ (0 : Fin 1) k

/-- The head's bias, staged as 1 × 1. -/
theorem blk9_apply (c : Dev nD) (t : Fin cfg0.N) :
    iblk m c 9 t (ix2 (0 : Fin 1) (0 : Fin 1)) = (argsOf m c).bout (ix1 (0 : Fin 1)) := by
  unfold iblk
  show V m c main_v5 (((cfg0.win 9).blk t).view.emb (ix2 (0 : Fin 1) (0 : Fin 1))) = _
  rw [emb9, V_main_v5]
  exact Cert.Lib.Keepdims.shapeCast_1_11_apply _ _ _

/-! ## One row of a point's blocks holds what the specification's row asks -/

/-- At point `t`, row `p`: the blocks the body loads hold row `4096 t + p` of the row-indexed arrays and the
    weights and biases in the layout the body reads them in. -/
theorem holds_at (c : Dev nD) (t : Fin cfg0.N) (p : Fin 4096) :
    Ker.Holds (argsOf m c) (rowAt t p) p (iblk m c 0 t) (iblk m c 1 t) (View.ld (iblk m c 4 t) r0_2)
      (View.ld (iblk m c 4 t) r0_3) (iblk m c 5 t) (iblk m c 2 t) (iblk m c 6 t) (iblk m c 7 t) where
  state := blk0_apply m c t p
  action := blk1_apply m c t p
  ws := blk4_upper m c t
  wa := blk4_lower m c t
  bin := blk5_apply m c t
  hidden := blk2_apply m c t p
  wi := blk6_upper m c t
  wh := blk6_lower m c t
  bias := blk7_apply m c t

/-! ## The three output windows -/

/-- Where window 10's block at point `t` sits in its array: rows `4096 t …`. -/
theorem emb10 (t : Fin cfg0.N) (y : S4096x1.Idx) :
    ((cfg0.win 10).blk t).view.emb y = ix2 (rowAt t (y 0)) (y 1) := by
  obtain ⟨e0, e1⟩ := (idx_facts t).2.2.2.2.2.2.2.2.2.2.1
  funext a; apply Fin.ext
  match a with
  | ⟨0, _⟩ => show win0_10.index t (0 : Fin 2) * 4096 + 1 * (y 0).val = t.val * 4096 + (y 0).val; omega
  | ⟨1, _⟩ => show win0_10.index t (1 : Fin 2) * 1 + 1 * (y 1).val = (y 1).val; omega

/-- What point `t` writes back through window 10 is block `t` of the specification's array. -/
theorem flushed10_eq (c : Dev nD) (t : Fin cfg0.N) :
    (dats m 0 c).flushed 10 t = ((cfg0.win 10).blk t).view.read (Elt Ideal) ((argsOf m c).out) := by
  show (cfg0.win 10).cut (grid0.coords t) ((dats m 0 c).after 10 t) = _
  rw [after0_10]
  unfold out0_10
  rw [View.canon_unit_zero hz]
  simp only [View.ld_unit_zero (S := S4096x192) hz, View.ld_unit_zero (S := S4096x32) hz,
    View.ld_unit_zero (S := S4096x64) hz, View.ld_unit_zero (S := S1x64) hz, View.ld_unit_zero (S := S128x256) hz,
    View.ld_unit_zero (S := S1x256) hz, View.ld_unit_zero (S := S1x1) hz]
  funext y
  revert y
  show ∀ y : S4096x1.Idx, _ = (argsOf m c).out (((cfg0.win 10).blk t).view.emb y)
  intro y
  refine ((congrArg _ (eq_ix2 y)).trans ((holds_at m c t (y 0)).out (iblk m c 3 t) (blk3_apply m c t (y 0)) (iblk m c 8 t) (iblk m c 9 t)
      (blk8_apply m c t) (blk9_apply m c t) (y 1))).trans ?_
  exact congrArg (argsOf m c).out (emb10 t y).symm

/-- An index of the array is in point `t`'s block of window 10 iff each coordinate is in the block's range. -/
theorem mem_blk10 (t : Fin cfg0.N) (i : S131072x1.Idx) :
    i ∈ ((cfg0.win 10).blk t).view.set ↔ ∀ a : Fin 2, win0_10.index t a * S4096x1.size a ≤ (i a).val
      ∧ (i a).val < win0_10.index t a * S4096x1.size a + S4096x1.size a := by
  show i ∈ ((View.whole main_v6_0).slice (win0_10.rect t)).set ↔ _
  rw [View.set_slice_whole, Rect.mem_set_unit]
  exact Iff.rfl

/-- Every index of window 10's array is in the block of the point `row / 4096`. -/
theorem cover10 (i : S131072x1.Idx) :
    ∃ t : Fin cfg0.N, (cfg0.win 10).flush t = true ∧ i ∈ ((cfg0.win 10).blk t).view.set := by
  have hi0 : (i 0).val < 131072 := (i 0).isLt
  have hi1 : (i 1).val < 1 := (i 1).isLt
  let t : Fin cfg0.N := ⟨(i 0).val / 4096, by show (i 0).val / 4096 < 32; omega⟩
  have ht : t.val = (i 0).val / 4096 := rfl
  refine ⟨t, flush0_10 t, ?_⟩
  rw [mem_blk10]
  obtain ⟨e0, e1⟩ := (idx_facts t).2.2.2.2.2.2.2.2.2.2.1
  intro a
  match a with
  | ⟨0, _⟩ => show win0_10.index t (0 : Fin 2) * 4096 ≤ (i 0).val ∧ (i 0).val < win0_10.index t (0 : Fin 2) * 4096 + 4096; omega
  | ⟨1, _⟩ => show win0_10.index t (1 : Fin 2) * 1 ≤ (i 1).val ∧ (i 1).val < win0_10.index t (1 : Fin 2) * 1 + 1; omega

/-- The array of window 10 after the run is the specification's. -/
theorem final10 (c : Dev nD) : (dats m 0 c).arrAt 10 cfg0.N = (argsOf m c).out :=
  (dats m 0 c).arrAt_eq_of_cover 10 _ (fun t _ => flushed10_eq m c t) cover10

/-- Where window 11's block at point `t` sits in its array: rows `4096 t …`. -/
theorem emb11 (t : Fin cfg0.N) (y : S4096x64.Idx) :
    ((cfg0.win 11).blk t).view.emb y = ix2 (rowAt t (y 0)) (y 1) := by
  obtain ⟨e0, e1⟩ := (idx_facts t).2.2.2.2.2.2.2.2.2.2.2.1
  funext a; apply Fin.ext
  match a with
  | ⟨0, _⟩ => show win0_11.index t (0 : Fin 2) * 4096 + 1 * (y 0).val = t.val * 4096 + (y 0).val; omega
  | ⟨1, _⟩ => show win0_11.index t (1 : Fin 2) * 64 + 1 * (y 1).val = (y 1).val; omega

/-- What point `t` writes back through window 11 is block `t` of the specification's array. -/
theorem flushed11_eq (c : Dev nD) (t : Fin cfg0.N) :
    (dats m 0 c).flushed 11 t = ((cfg0.win 11).blk t).view.read (Elt Ideal) ((argsOf m c).newH) := by
  show (cfg0.win 11).cut (grid0.coords t) ((dats m 0 c).after 11 t) = _
  rw [after0_11]
  unfold out0_11
  rw [View.canon_unit_zero hz]
  simp only [View.ld_unit_zero (S := S4096x192) hz, View.ld_unit_zero (S := S4096x32) hz,
    View.ld_unit_zero (S := S4096x64) hz, View.ld_unit_zero (S := S1x64) hz, View.ld_unit_zero (S := S128x256) hz,
    View.ld_unit_zero (S := S1x256) hz, View.ld_unit_zero (S := S1x1) hz]
  funext y
  revert y
  show ∀ y : S4096x64.Idx, _ = (argsOf m c).newH (((cfg0.win 11).blk t).view.emb y)
  intro y
  refine ((congrArg _ (eq_ix2 y)).trans ((holds_at m c t (y 0)).newH (iblk m c 3 t) (blk3_apply m c t (y 0)) (y 1))).trans ?_
  exact congrArg (argsOf m c).newH (emb11 t y).symm

/-- An index of the array is in point `t`'s block of window 11 iff each coordinate is in the block's range. -/
theorem mem_blk11 (t : Fin cfg0.N) (i : S131072x64.Idx) :
    i ∈ ((cfg0.win 11).blk t).view.set ↔ ∀ a : Fin 2, win0_11.index t a * S4096x64.size a ≤ (i a).val
      ∧ (i a).val < win0_11.index t a * S4096x64.size a + S4096x64.size a := by
  show i ∈ ((View.whole main_v6_1).slice (win0_11.rect t)).set ↔ _
  rw [View.set_slice_whole, Rect.mem_set_unit]
  exact Iff.rfl

/-- Every index of window 11's array is in the block of the point `row / 4096`. -/
theorem cover11 (i : S131072x64.Idx) :
    ∃ t : Fin cfg0.N, (cfg0.win 11).flush t = true ∧ i ∈ ((cfg0.win 11).blk t).view.set := by
  have hi0 : (i 0).val < 131072 := (i 0).isLt
  have hi1 : (i 1).val < 64 := (i 1).isLt
  let t : Fin cfg0.N := ⟨(i 0).val / 4096, by show (i 0).val / 4096 < 32; omega⟩
  have ht : t.val = (i 0).val / 4096 := rfl
  refine ⟨t, flush0_11 t, ?_⟩
  rw [mem_blk11]
  obtain ⟨e0, e1⟩ := (idx_facts t).2.2.2.2.2.2.2.2.2.2.2.1
  intro a
  match a with
  | ⟨0, _⟩ => show win0_11.index t (0 : Fin 2) * 4096 ≤ (i 0).val ∧ (i 0).val < win0_11.index t (0 : Fin 2) * 4096 + 4096; omega
  | ⟨1, _⟩ => show win0_11.index t (1 : Fin 2) * 64 ≤ (i 1).val ∧ (i 1).val < win0_11.index t (1 : Fin 2) * 64 + 64; omega

/-- The array of window 11 after the run is the specification's. -/
theorem final11 (c : Dev nD) : (dats m 0 c).arrAt 11 cfg0.N = (argsOf m c).newH :=
  (dats m 0 c).arrAt_eq_of_cover 11 _ (fun t _ => flushed11_eq m c t) cover11

/-- Where window 12's block at point `t` sits in its array: rows `4096 t …`. -/
theorem emb12 (t : Fin cfg0.N) (y : S4096x64.Idx) :
    ((cfg0.win 12).blk t).view.emb y = ix2 (rowAt t (y 0)) (y 1) := by
  obtain ⟨e0, e1⟩ := (idx_facts t).2.2.2.2.2.2.2.2.2.2.2.2
  funext a; apply Fin.ext
  match a with
  | ⟨0, _⟩ => show win0_12.index t (0 : Fin 2) * 4096 + 1 * (y 0).val = t.val * 4096 + (y 0).val; omega
  | ⟨1, _⟩ => show win0_12.index t (1 : Fin 2) * 64 + 1 * (y 1).val = (y 1).val; omega

/-- What point `t` writes back through window 12 is block `t` of the specification's array. -/
theorem flushed12_eq (c : Dev nD) (t : Fin cfg0.N) :
    (dats m 0 c).flushed 12 t = ((cfg0.win 12).blk t).view.read (Elt Ideal) ((argsOf m c).newC) := by
  show (cfg0.win 12).cut (grid0.coords t) ((dats m 0 c).after 12 t) = _
  rw [after0_12]
  unfold out0_12
  rw [View.canon_unit_zero hz]
  simp only [View.ld_unit_zero (S := S4096x192) hz, View.ld_unit_zero (S := S4096x32) hz,
    View.ld_unit_zero (S := S4096x64) hz, View.ld_unit_zero (S := S1x64) hz, View.ld_unit_zero (S := S128x256) hz,
    View.ld_unit_zero (S := S1x256) hz, View.ld_unit_zero (S := S1x1) hz]
  funext y
  revert y
  show ∀ y : S4096x64.Idx, _ = (argsOf m c).newC (((cfg0.win 12).blk t).view.emb y)
  intro y
  refine ((congrArg _ (eq_ix2 y)).trans ((holds_at m c t (y 0)).newC (iblk m c 3 t) (blk3_apply m c t (y 0)) (y 1))).trans ?_
  exact congrArg (argsOf m c).newC (emb12 t y).symm

/-- An index of the array is in point `t`'s block of window 12 iff each coordinate is in the block's range. -/
theorem mem_blk12 (t : Fin cfg0.N) (i : S131072x64.Idx) :
    i ∈ ((cfg0.win 12).blk t).view.set ↔ ∀ a : Fin 2, win0_12.index t a * S4096x64.size a ≤ (i a).val
      ∧ (i a).val < win0_12.index t a * S4096x64.size a + S4096x64.size a := by
  show i ∈ ((View.whole main_v6_2).slice (win0_12.rect t)).set ↔ _
  rw [View.set_slice_whole, Rect.mem_set_unit]
  exact Iff.rfl

/-- Every index of window 12's array is in the block of the point `row / 4096`. -/
theorem cover12 (i : S131072x64.Idx) :
    ∃ t : Fin cfg0.N, (cfg0.win 12).flush t = true ∧ i ∈ ((cfg0.win 12).blk t).view.set := by
  have hi0 : (i 0).val < 131072 := (i 0).isLt
  have hi1 : (i 1).val < 64 := (i 1).isLt
  let t : Fin cfg0.N := ⟨(i 0).val / 4096, by show (i 0).val / 4096 < 32; omega⟩
  have ht : t.val = (i 0).val / 4096 := rfl
  refine ⟨t, flush0_12 t, ?_⟩
  rw [mem_blk12]
  obtain ⟨e0, e1⟩ := (idx_facts t).2.2.2.2.2.2.2.2.2.2.2.2
  intro a
  match a with
  | ⟨0, _⟩ => show win0_12.index t (0 : Fin 2) * 4096 ≤ (i 0).val ∧ (i 0).val < win0_12.index t (0 : Fin 2) * 4096 + 4096; omega
  | ⟨1, _⟩ => show win0_12.index t (1 : Fin 2) * 64 ≤ (i 1).val ∧ (i 1).val < win0_12.index t (1 : Fin 2) * 64 + 64; omega

/-- The array of window 12 after the run is the specification's. -/
theorem final12 (c : Dev nD) : (dats m 0 c).arrAt 12 cfg0.N = (argsOf m c).newC :=
  (dats m 0 c).arrAt_eq_of_cover 12 _ (fun t _ => flushed12_eq m c t) cover12

end Cert.Lstm.Blk

end
-- ==== Proof.KernelRun.lean ====
/-
  The kernel program's run, read at the specification.

  After the launch the three output arrays are the specification's (the 32 blocks cover them); the host then cuts
  the new hidden state and the new cell state each into its two halves. So every weakly fair execution ends with the
  output column, the two halves of the new hidden state and the two halves of the new cell state in the five result
  buffers, and with the twelve arguments as launched.
-/
import proofs.«132099_j39737037422777_2_alg».proof.Proof.Gen.KernelIdeal.Frame
import proofs.«132099_j39737037422777_2_alg».proof.Proof.CellSpec
import proofs.«132099_j39737037422777_2_alg».proof.Proof.Halves
import proofs.«132099_j39737037422777_2_alg».proof.Proof.KernelBlocks
import Idealize.ShloMosaic.Lib.Pipeline.Value
import Idealize.ShloMosaic.Lib.StableHlo.Run

set_option maxRecDepth 16384

noncomputable section

namespace Cert.Lstm.Run

open Idealize.ShloMosaic Idealize.ShloMosaic.TcCoe Idealize.SL.Sem
open Idealize.ShloMosaic.Pipeline Cert.KernelIdeal Cert.KernelIdeal.Gen Cert.Lstm Cert.Lstm.Blk

variable (m : (ℓ : Loc nD τ sig) → Buf (Elt Ideal) ℓ) (ρ : Dev nD → PrngReg)

/-- The host's lines after the launch leave in result `main_v10` slab 0 of the new hidden state. -/
theorem tail_main_v10 (c : Dev nD) :
    Pipeline.afterTail₀ cfgs (dats m) 0 (V0 m) [hostOps1] c main_v10
      = half 0 shapeCasts_S131072x64_S2x1x4194304 slices_S2x1x4194304_S1x1x4194304_0_0_0 shapeCasts_S1x1x4194304_S1x4194304 (argsOf m c).newH := by
  unfold Pipeline.afterTail₀
  show StableHlo.after hostOps1 _ (Proc.devRef .tc main_v10) = _
  after_results
  exact congrArg (half 0 shapeCasts_S131072x64_S2x1x4194304 slices_S2x1x4194304_S1x1x4194304_0_0_0 shapeCasts_S1x1x4194304_S1x4194304)
    ((Pipeline.withArrays_arr spec0 launch0.win.arr_inj c _ _ 11).trans (final11 m c))

/-- The host's lines after the launch leave in result `main_v12` slab 1 of the new hidden state. -/
theorem tail_main_v12 (c : Dev nD) :
    Pipeline.afterTail₀ cfgs (dats m) 0 (V0 m) [hostOps1] c main_v12
      = half 1 shapeCasts_S131072x64_S2x1x4194304 slices_S2x1x4194304_S1x1x4194304_1_0_0 shapeCasts_S1x1x4194304_S1x4194304 (argsOf m c).newH := by
  unfold Pipeline.afterTail₀
  show StableHlo.after hostOps1 _ (Proc.devRef .tc main_v12) = _
  after_results
  exact congrArg (half 1 shapeCasts_S131072x64_S2x1x4194304 slices_S2x1x4194304_S1x1x4194304_1_0_0 shapeCasts_S1x1x4194304_S1x4194304)
    ((Pipeline.withArrays_arr spec0 launch0.win.arr_inj c _ _ 11).trans (final11 m c))

/-- The host's lines after the launch leave in result `main_v14` slab 0 of the new cell state. -/
theorem tail_main_v14 (c : Dev nD) :
    Pipeline.afterTail₀ cfgs (dats m) 0 (V0 m) [hostOps1] c main_v14
      = half 0 shapeCasts_S131072x64_S2x1x4194304 slices_S2x1x4194304_S1x1x4194304_0_0_0 shapeCasts_S1x1x4194304_S1x4194304 (argsOf m c).newC := by
  unfold Pipeline.afterTail₀
  show StableHlo.after hostOps1 _ (Proc.devRef .tc main_v14) = _
  after_results
  exact congrArg (half 0 shapeCasts_S131072x64_S2x1x4194304 slices_S2x1x4194304_S1x1x4194304_0_0_0 shapeCasts_S1x1x4194304_S1x4194304)
    ((Pipeline.withArrays_arr spec0 launch0.win.arr_inj c _ _ 12).trans (final12 m c))

/-- The host's lines after the launch leave in result `main_v16` slab 1 of the new cell state. -/
theorem tail_main_v16 (c : Dev nD) :
    Pipeline.afterTail₀ cfgs (dats m) 0 (V0 m) [hostOps1] c main_v16
      = half 1 shapeCasts_S131072x64_S2x1x4194304 slices_S2x1x4194304_S1x1x4194304_1_0_0 shapeCasts_S1x1x4194304_S1x4194304 (argsOf m c).newC := by
  unfold Pipeline.afterTail₀
  show StableHlo.after hostOps1 _ (Proc.devRef .tc main_v16) = _
  after_results
  exact congrArg (half 1 shapeCasts_S131072x64_S2x1x4194304 slices_S2x1x4194304_S1x1x4194304_1_0_0 shapeCasts_S1x1x4194304_S1x4194304)
    ((Pipeline.withArrays_arr spec0 launch0.win.arr_inj c _ _ 12).trans (final12 m c))

/-- Every weakly fair execution of the kernel program terminates with the five results at the specification's values
    of the launched arguments, and the arguments unchanged. -/
theorem run : θ_run defs (onTc (τ := τ) (main (F := Ideal))) ⟨m, fun _ => 0, ρ⟩ fun r => ∀ c : Dev nD,
      r.2.mem ((c.tc : Thread nD τ).loc main_v6_0) = (argsOf m c).out
      ∧ r.2.mem ((c.tc : Thread nD τ).loc main_v10)
          = half 0 shapeCasts_S131072x64_S2x1x4194304 slices_S2x1x4194304_S1x1x4194304_0_0_0 shapeCasts_S1x1x4194304_S1x4194304 (argsOf m c).newH
      ∧ r.2.mem ((c.tc : Thread nD τ).loc main_v12)
          = half 1 shapeCasts_S131072x64_S2x1x4194304 slices_S2x1x4194304_S1x1x4194304_1_0_0 shapeCasts_S1x1x4194304_S1x4194304 (argsOf m c).newH
      ∧ r.2.mem ((c.tc : Thread nD τ).loc main_v14)
          = half 0 shapeCasts_S131072x64_S2x1x4194304 slices_S2x1x4194304_S1x1x4194304_0_0_0 shapeCasts_S1x1x4194304_S1x4194304 (argsOf m c).newC
      ∧ r.2.mem ((c.tc : Thread nD τ).loc main_v16)
          = half 1 shapeCasts_S131072x64_S2x1x4194304 slices_S2x1x4194304_S1x1x4194304_1_0_0 shapeCasts_S1x1x4194304_S1x4194304 (argsOf m c).newC
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨((h c).1 10).trans (final10 m c),
      ((h c).2 main_v10 (Pipeline.mem_restRefs_of main_v10 (by decide) (by decide))).trans (tail_main_v10 m c),
      ((h c).2 main_v12 (Pipeline.mem_restRefs_of main_v12 (by decide) (by decide))).trans (tail_main_v12 m c),
      ((h c).2 main_v14 (Pipeline.mem_restRefs_of main_v14 (by decide) (by decide))).trans (tail_main_v14 m c),
      ((h c).2 main_v16 (Pipeline.mem_restRefs_of main_v16 (by decide) (by decide))).trans (tail_main_v16 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩)
    (run_main m ρ)

end Cert.Lstm.Run

end
-- ==== Proof.lean ====
/-
  One step of a long short-term memory cell over 131072 independent rows: a blocked kernel against its plain
  reference, as exact functions of extended reals.

  The kernel takes 4096 rows per grid point. It projects the observation and the action by the two parts of the input
  weight and adds the two products, where the reference joins the two along the columns and multiplies once: a sum
  over 224 indices is the sum over the first 192 plus the sum over the last 32. It joins the rectified projection and
  the hidden state along the columns and multiplies by the two gate weights stacked, adding the two biases' sum, where
  the reference multiplies twice, adds, and adds the biases one after the other: a sum over 128 indices as 64 + 64, and
  associativity of addition. Its one-operation logistic function is the reference's quotient 1 / (1 + exp (-x)); its
  output head multiplies by the weight laid as a row and sums along the lanes, where the reference contracts with the
  weight column. Format changes are the identity on extended reals. Nothing is cancelled or distributed, so no value
  needs to be finite and the precondition is never opened.

  Both programs end by cutting the new hidden state and the new cell state into two halves each, by the same
  operations; equal arrays have equal halves.

  The three frames are the generated ones (the reference's is its generated run with the results dropped), the
  idealized kernel is the kernel's text unchanged, and the algebraic claim puts the kernel's run and the reference's run side by side at the
  row-by-row specification of the cell.
-/
import proofs.«132099_j39737037422777_2_alg».proof.Defs
import proofs.«132099_j39737037422777_2_alg».proof.Proof.Gen.Kernel
import proofs.«132099_j39737037422777_2_alg».proof.Proof.Gen.Kernel.Skeleton
import proofs.«132099_j39737037422777_2_alg».proof.Proof.Gen.Kernel.Launch
import proofs.«132099_j39737037422777_2_alg».proof.Proof.Gen.Kernel.Points
import proofs.«132099_j39737037422777_2_alg».proof.Proof.Gen.Kernel.Frame
import proofs.«132099_j39737037422777_2_alg».proof.Proof.Gen.KernelIdeal
import proofs.«132099_j39737037422777_2_alg».proof.Proof.Gen.KernelIdeal.Skeleton
import proofs.«132099_j39737037422777_2_alg».proof.Proof.Gen.KernelIdeal.Launch
import proofs.«132099_j39737037422777_2_alg».proof.Proof.Gen.KernelIdeal.Points
import proofs.«132099_j39737037422777_2_alg».proof.Proof.Gen.KernelIdeal.Frame
import proofs.«132099_j39737037422777_2_alg».proof.Proof.Gen.ReferenceIdeal
import proofs.«132099_j39737037422777_2_alg».proof.Proof.Gen.Pre_finite_inputs
import proofs.«132099_j39737037422777_2_alg».proof.Proof.Gen.ReferenceIdeal.Run
import proofs.«132099_j39737037422777_2_alg».proof.Proof.Gen.ReferenceIdeal.Read
import proofs.«132099_j39737037422777_2_alg».proof.Proof.Halves
import proofs.«132099_j39737037422777_2_alg».proof.Proof.RefSide
import proofs.«132099_j39737037422777_2_alg».proof.Proof.KernelRun
import Idealize.ShloMosaic.Adequacy
import Idealize.ShloMosaic.Init

noncomputable section

namespace Cert.Proof

open Idealize.ShloMosaic Idealize.ShloMosaic.TcCoe Idealize.SL.Sem

/-! ## The reference's last lines are the halves -/

section Halves

open Cert.ReferenceIdeal Cert.ReferenceIdeal.Read Cert.ReferenceIdeal.Gen

variable (x0 : (⟨S131072x192, .f32⟩ : BufTy).Contents (Elt Ideal)) (x1 : (⟨S131072x32, .f32⟩ : BufTy).Contents (Elt Ideal))
  (x2 x3 : (⟨S131072x64, .f32⟩ : BufTy).Contents (Elt Ideal)) (x4 : (⟨S224x64, .f32⟩ : BufTy).Contents (Elt Ideal))
  (x5 : (⟨S64, .f32⟩ : BufTy).Contents (Elt Ideal)) (x6 : (⟨S64x256, .f32⟩ : BufTy).Contents (Elt Ideal))
  (x7 : (⟨S256, .f32⟩ : BufTy).Contents (Elt Ideal)) (x8 : (⟨S64x256, .f32⟩ : BufTy).Contents (Elt Ideal))
  (x9 : (⟨S256, .f32⟩ : BufTy).Contents (Elt Ideal))

/-- The reference's second result is slab 0 of its new hidden state. -/
theorem ref_h0 : val_main_v51 (F := Ideal) x0 x1 x2 x3 x4 x5 x6 x7 x8 x9
    = Cert.Lstm.half 0 shapeCasts_S131072x64_S2x1x4194304 slices_S2x1x4194304_S1x1x4194304_0_0_0 shapeCasts_S1x1x4194304_S1x4194304
        (val_main_v42 (F := Ideal) x0 x1 x2 x3 x4 x5 x6 x7 x8 x9) := rfl
/-- Its third is slab 1 of it. -/
theorem ref_h1 : val_main_v53 (F := Ideal) x0 x1 x2 x3 x4 x5 x6 x7 x8 x9
    = Cert.Lstm.half 1 shapeCasts_S131072x64_S2x1x4194304 slices_S2x1x4194304_S1x1x4194304_1_0_0 shapeCasts_S1x1x4194304_S1x4194304
        (val_main_v42 (F := Ideal) x0 x1 x2 x3 x4 x5 x6 x7 x8 x9) := rfl
/-- Its fourth is slab 0 of its new cell state. -/
theorem ref_c0 : val_main_v55 (F := Ideal) x0 x1 x2 x3 x4 x5 x6 x7 x8 x9
    = Cert.Lstm.half 0 shapeCasts_S131072x64_S2x1x4194304 slices_S2x1x4194304_S1x1x4194304_0_0_0 shapeCasts_S1x1x4194304_S1x4194304
        (val_main_v40 (F := Ideal) x0 x1 x2 x3 x4 x5 x6 x7 x8 x9) := rfl
/-- Its fifth is slab 1 of it. -/
theorem ref_c1 : val_main_v57 (F := Ideal) x0 x1 x2 x3 x4 x5 x6 x7 x8 x9
    = Cert.Lstm.half 1 shapeCasts_S131072x64_S2x1x4194304 slices_S2x1x4194304_S1x1x4194304_1_0_0 shapeCasts_S1x1x4194304_S1x4194304
        (val_main_v40 (F := Ideal) x0 x1 x2 x3 x4 x5 x6 x7 x8 x9) := rfl

end Halves

/-! ## The claims -/

theorem frame_k : Cert.frame_Kernel := fun m ρ _ => Cert.Kernel.Gen.frame m ρ
theorem frame_ki : Cert.frame_KernelIdeal := fun m ρ _ => Cert.KernelIdeal.Gen.frame m ρ
/-- The reference's frame: its run with the five results dropped. -/
theorem frame_ri : Cert.frame_ReferenceIdeal := fun m ρ _ =>
  (θ_run Cert.ReferenceIdeal.defs _ _).mono (fun _ h c => (h c).2.2.2.2.2) (Cert.ReferenceIdeal.Value.run (F := Ideal) m ρ)

/-- The idealized kernel is the kernel's own text read over the extended reals: nothing was rewritten. -/
theorem preserves : Cert.preserves_Kernel_KernelIdeal := trivial

/-- From memories that agree on the twelve arguments both programs end with the specification's output column and
    the halves of its new hidden and cell states: the kernel by its run read through the blocks, the reference by its
    run read one operation at a time. -/
theorem algebraic : Cert.algebraic_KernelIdeal_ReferenceIdeal := by
  intro m ρ m' ρ' _ hagree
  refine ⟨_, _, _, _, _, Cert.Lstm.Run.run m ρ, ?_⟩
  refine (θ_run Cert.ReferenceIdeal.defs _ _).mono (fun _ h c => ?_) (Cert.ReferenceIdeal.Value.run (F := Ideal) m' ρ')
  obtain ⟨r0, r1, r2, r3, r4, kept⟩ := h c
  obtain ⟨a0, a1, a2, a3, a4, a5, a6, a7, a8, a9, a10, a11⟩ := hagree c
  refine ⟨r0.trans ?_, r1.trans ?_, r2.trans ?_, r3.trans ?_, r4.trans ?_, kept⟩
  · rw [Cert.ReferenceIdeal.Read.val_main_v47_eq, a0, a1, a2, a3, a4, a5, a6, a7, a8, a9, a10, a11]
    exact Cert.Lstm.Ref.out_eq _ _ _ _ _ _ _ _ _ _ _ _
  · rw [Cert.ReferenceIdeal.Read.val_main_v51_eq, a0, a1, a2, a3, a4, a5, a6, a7, a8, a9, ref_h0]
    exact congrArg (Cert.Lstm.half 0 _ _ _) (Cert.Lstm.Ref.newH_eq _ _ _ _ _ _ _ _ _ _ (m ((c.tc : Thread Cert.KernelIdeal.nD Cert.KernelIdeal.τ).loc Cert.KernelIdeal.main_arg10)) (m ((c.tc : Thread Cert.KernelIdeal.nD Cert.KernelIdeal.τ).loc Cert.KernelIdeal.main_arg11)))
  · rw [Cert.ReferenceIdeal.Read.val_main_v53_eq, a0, a1, a2, a3, a4, a5, a6, a7, a8, a9, ref_h1]
    exact congrArg (Cert.Lstm.half 1 _ _ _) (Cert.Lstm.Ref.newH_eq _ _ _ _ _ _ _ _ _ _ (m ((c.tc : Thread Cert.KernelIdeal.nD Cert.KernelIdeal.τ).loc Cert.KernelIdeal.main_arg10)) (m ((c.tc : Thread Cert.KernelIdeal.nD Cert.KernelIdeal.τ).loc Cert.KernelIdeal.main_arg11)))
  · rw [Cert.ReferenceIdeal.Read.val_main_v55_eq, a0, a1, a2, a3, a4, a5, a6, a7, a8, a9, ref_c0]
    exact congrArg (Cert.Lstm.half 0 _ _ _) (Cert.Lstm.Ref.newC_eq _ _ _ _ _ _ _ _ _ _ (m ((c.tc : Thread Cert.KernelIdeal.nD Cert.KernelIdeal.τ).loc Cert.KernelIdeal.main_arg10)) (m ((c.tc : Thread Cert.KernelIdeal.nD Cert.KernelIdeal.τ).loc Cert.KernelIdeal.main_arg11)))
  · rw [Cert.ReferenceIdeal.Read.val_main_v57_eq, a0, a1, a2, a3, a4, a5, a6, a7, a8, a9, ref_c1]
    exact congrArg (Cert.Lstm.half 1 _ _ _) (Cert.Lstm.Ref.newC_eq _ _ _ _ _ _ _ _ _ _ (m ((c.tc : Thread Cert.KernelIdeal.nD Cert.KernelIdeal.τ).loc Cert.KernelIdeal.main_arg10)) (m ((c.tc : Thread Cert.KernelIdeal.nD Cert.KernelIdeal.τ).loc Cert.KernelIdeal.main_arg11)))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
